-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v43) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x1x8192 : Shape := ⟨3, ![4, 1, 8192]⟩
abbrev S1x2048x3 : Shape := ⟨3, ![1, 2048, 3]⟩
abbrev S1x1024x3 : Shape := ⟨3, ![1, 1024, 3]⟩
abbrev S1x1x8192 : Shape := ⟨3, ![1, 1, 8192]⟩
abbrev S1x8192 : Shape := ⟨2, ![1, 8192]⟩
abbrev S2048x3 : Shape := ⟨2, ![2048, 3]⟩
abbrev S1024x3 : Shape := ⟨2, ![1024, 3]⟩
abbrev S3x1024 : Shape := ⟨2, ![3, 1024]⟩
abbrev S2048x1 : Shape := ⟨2, ![2048, 1]⟩
abbrev S1x1024 : Shape := ⟨2, ![1, 1024]⟩
abbrev S2048x1024 : Shape := ⟨2, ![2048, 1024]⟩
abbrev S2048 : Shape := ⟨1, ![2048]⟩
abbrev S1024 : Shape := ⟨1, ![1024]⟩
abbrev S1x2048 : Shape := ⟨2, ![1, 2048]⟩
abbrev S1x1x2048 : Shape := ⟨3, ![1, 1, 2048]⟩
abbrev S1x1x1024 : Shape := ⟨3, ![1, 1, 1024]⟩
abbrev S4x8192 : Shape := ⟨2, ![4, 8192]⟩
abbrev S_ : Shape := ⟨0, ![]⟩
abbrev S4 : Shape := ⟨1, ![4]⟩

abbrev nBuf : Space → Nat
  | .hbm => 71
  | .vmem => 8
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x1x8192, .f32⟩
  | .hbm, ⟨3, _⟩ => ⟨S4x1x8192, .f32⟩
  | .hbm, ⟨4, _⟩ => ⟨S4x8192, .f32⟩
  | .hbm, ⟨5, _⟩ => ⟨S4x8192, .f32⟩
  | .hbm, ⟨6, _⟩ => ⟨S4x8192, .f32⟩
  | .hbm, ⟨7, _⟩ => ⟨S_, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S4x8192, .f32⟩
  | .hbm, ⟨13, _⟩ => ⟨S_, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S_, .f32⟩
  | .hbm, ⟨20, _⟩ => ⟨S4, .f32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S_, .f32⟩
  | .hbm, ⟨25, _⟩ => ⟨S4, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S_, .f32⟩
  | .hbm, ⟨34, _⟩ => ⟨S4x8192, .f32⟩
  | .hbm, ⟨35, _⟩ => ⟨S4x8192, .i1⟩
  | .hbm, ⟨36, _⟩ => ⟨S4x8192, .f32⟩
  | .hbm, ⟨37, _⟩ => ⟨S_, .f32⟩
  | .hbm, ⟨38, _⟩ => ⟨S4, .f32⟩
  | .hbm, ⟨39, _⟩ => ⟨S_, .f32⟩
  | .hbm, ⟨40, _⟩ => ⟨S4, .f32⟩
  | .hbm, ⟨41, _⟩ => ⟨S4, .f32⟩
  | .hbm, ⟨42, _⟩ => ⟨S_, .f32⟩
  | .hbm, ⟨43, _⟩ => ⟨S4x8192, .f32⟩
  | .hbm, ⟨44, _⟩ => ⟨S4x8192, .i1⟩
  | .hbm, ⟨45, _⟩ => ⟨S4x8192, .f32⟩
  | .hbm, ⟨46, _⟩ => ⟨S_, .f32⟩
  | .hbm, ⟨47, _⟩ => ⟨S4, .f32⟩
  | .hbm, ⟨48, _⟩ => ⟨S_, .f32⟩
  | .hbm, ⟨49, _⟩ => ⟨S4, .f32⟩
  | .hbm, ⟨50, _⟩ => ⟨S4, .f32⟩
  | .hbm, ⟨51, _⟩ => ⟨S4, .f32⟩
  | .hbm, ⟨52, _⟩ => ⟨S_, .f32⟩
  | .hbm, ⟨53, _⟩ => ⟨S4, .f32⟩
  | .hbm, ⟨54, _⟩ => ⟨S4, .i1⟩
  | .hbm, ⟨55, _⟩ => ⟨S_, .f32⟩
  | .hbm, ⟨56, _⟩ => ⟨S4, .f32⟩
  | .hbm, ⟨57, _⟩ => ⟨S4, .f32⟩
  | .hbm, ⟨58, _⟩ => ⟨S4, .f32⟩
  | .hbm, ⟨59, _⟩ => ⟨S_, .f32⟩
  | .hbm, ⟨60, _⟩ => ⟨S4, .f32⟩
  | .hbm, ⟨61, _⟩ => ⟨S4, .i1⟩
  | .hbm, ⟨62, _⟩ => ⟨S_, .f32⟩
  | .hbm, ⟨63, _⟩ => ⟨S_, .f32⟩
  | .hbm, ⟨64, _⟩ => ⟨S4, .f32⟩
  | .hbm, ⟨65, _⟩ => ⟨S4, .f32⟩
  | .hbm, ⟨66, _⟩ => ⟨S4, .f32⟩
  | .hbm, ⟨67, _⟩ => ⟨S_, .f32⟩
  | .hbm, ⟨68, _⟩ => ⟨S_, .f32⟩
  | .hbm, ⟨69, _⟩ => ⟨S4, .f32⟩
  | .hbm, ⟨70, _⟩ => ⟨S4, .f32⟩
  | .local _ .vmem, ⟨0, _⟩ => ⟨S1x2048x3, .f32⟩
  | .local _ .vmem, ⟨1, _⟩ => ⟨S1x2048x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1x8192, .f32⟩
  | .local _ .vmem, ⟨5, _⟩ => ⟨S1x1x8192, .f32⟩
  | .local _ .vmem, ⟨6, _⟩ => ⟨S1x1x8192, .f32⟩
  | .local _ .vmem, ⟨7, _⟩ => ⟨S1x1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_v16 : Ref sig .tc := ⟨.hbm, 26, rfl⟩
abbrev main_cst_6 : Ref sig .tc := ⟨.hbm, 27, rfl⟩
abbrev main_v17 : Ref sig .tc := ⟨.hbm, 28, rfl⟩
abbrev main_cst_7 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_8 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_9 : Ref sig .tc := ⟨.hbm, 37, rfl⟩
abbrev main_v24 : Ref sig .tc := ⟨.hbm, 38, rfl⟩
abbrev main_cst_10 : Ref sig .tc := ⟨.hbm, 39, rfl⟩
abbrev main_v25 : Ref sig .tc := ⟨.hbm, 40, rfl⟩
abbrev main_v26 : Ref sig .tc := ⟨.hbm, 41, rfl⟩
abbrev main_cst_11 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_12 : Ref sig .tc := ⟨.hbm, 46, rfl⟩
abbrev main_v30 : Ref sig .tc := ⟨.hbm, 47, rfl⟩
abbrev main_cst_13 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_14 : Ref sig .tc := ⟨.hbm, 52, rfl⟩
abbrev main_v34 : Ref sig .tc := ⟨.hbm, 53, rfl⟩
abbrev main_v35 : Ref sig .tc := ⟨.hbm, 54, rfl⟩
abbrev main_cst_15 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_16 : Ref sig .tc := ⟨.hbm, 59, rfl⟩
abbrev main_v39 : Ref sig .tc := ⟨.hbm, 60, rfl⟩
abbrev main_v40 : Ref sig .tc := ⟨.hbm, 61, rfl⟩
abbrev main_cst_17 : Ref sig .tc := ⟨.hbm, 62, rfl⟩
abbrev main_call0_v0 : Ref sig .tc := ⟨.hbm, 63, rfl⟩
abbrev main_call0_v1 : Ref sig .tc := ⟨.hbm, 64, rfl⟩
abbrev main_v41 : Ref sig .tc := ⟨.hbm, 65, rfl⟩
abbrev main_v42 : Ref sig .tc := ⟨.hbm, 66, rfl⟩
abbrev main_cst_18 : Ref sig .tc := ⟨.hbm, 67, rfl⟩
abbrev main_call1_v0 : Ref sig .tc := ⟨.hbm, 68, rfl⟩
abbrev main_call1_v1 : Ref sig .tc := ⟨.hbm, 69, rfl⟩
abbrev main_v43 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_mult1 (i : grid0.Coords) : BitVec 32 :=
  let arg1 : BitVec 32 := BitVec.ofNat 32 (i 1).val
  let c2048_i32 : BitVec 32 := 2048#32
  let v35 : BitVec 32 := Scalar.muli arg1 c2048_i32
  v35
def k0_mult2 (i : grid0.Coords) : BitVec 32 :=
  let arg2 : BitVec 32 := BitVec.ofNat 32 (i 2).val
  let c1024_i32 : BitVec 32 := 1024#32
  let v37 : BitVec 32 := Scalar.muli arg2 c1024_i32
  v37
def k0_off1 (i : grid0.Coords) : Fin 3 → Nat :=
  let c0_8 : Index := 0#32
  let c0_9 : Index := 0#32
  let arg1 : BitVec 32 := BitVec.ofNat 32 (i 1).val
  let c2048_i32 : BitVec 32 := 2048#32
  let v35 : BitVec 32 := Scalar.muli arg1 c2048_i32
  let v36 : BitVec 32 := v35
  let v39 : Index := Scalar.indexCast v36
  ![0, 0, v39.toNat]
def k0_off2 (i : grid0.Coords) : Fin 3 → Nat :=
  let c0_12 : Index := 0#32
  let c0_13 : Index := 0#32
  let arg2 : BitVec 32 := BitVec.ofNat 32 (i 2).val
  let c1024_i32 : BitVec 32 := 1024#32
  let v37 : BitVec 32 := Scalar.muli arg2 c1024_i32
  let v38 : BitVec 32 := v37
  let v47 : Index := Scalar.indexCast v38
  ![0, 0, v47.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  transposes_S1024x3_p1_0_S3x1024 : S1024x3.Transposes [1, 0] S3x1024
  slices_S2048x3_o0_0_S2048x1 : S2048x3.Slices ![0, 0] S2048x1
  slices_S3x1024_o0_0_S1x1024 : S3x1024.Slices ![0, 0] S1x1024
  broadcasts_S2048x1_S2048x1024 : S2048x1.Broadcasts S2048x1024
  broadcasts_S1x1024_S2048x1024 : S1x1024.Broadcasts S2048x1024
  slices_S2048x3_o0_1_S2048x1 : S2048x3.Slices ![0, 1] S2048x1
  slices_S3x1024_o1_0_S1x1024 : S3x1024.Slices ![1, 0] S1x1024
  slices_S2048x3_o0_2_S2048x1 : S2048x3.Slices ![0, 2] S2048x1
  slices_S3x1024_o2_0_S1x1024 : S3x1024.Slices ![2, 0] S1x1024
  reduces_S2048x1024_S2048 : S2048x1024.Reduces [1] S2048
  shapeCasts_S2048_S2048x1 : S2048.ShapeCasts S2048x1
  reduces_S2048x1024_S1024 : S2048x1024.Reduces [0] S1024
  shapeCasts_S1024_S1x1024 : S1024.ShapeCasts S1x1024
  transposes_S2048x1_p1_0_S1x2048 : S2048x1.Transposes [1, 0] S1x2048
  h_S1x1x2048 : 0 < S1x1x2048.numel
  shapeCasts_S1x1x2048_S1x2048 : S1x1x2048.ShapeCasts S1x2048
  shapeCasts_S1x2048_S1x1x2048 : S1x2048.ShapeCasts S1x1x2048
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S4x1x8192_S4x8192 : S4x1x8192.ShapeCasts S4x8192
  reducesTo_S4x8192_S4_d1 : S4x8192.ReducesTo [1] S4
  h_S_ : 0 < S_.numel
  bcast_S_S4 : S_.BroadcastsInDim S4 (![] : Fin 0 → Fin S4.rank)
  bcast_S_S4x8192 : S_.BroadcastsInDim S4x8192 (![] : Fin 0 → Fin S4x8192.rank)
  hrank0 : 0 < grid0.rank
  k0_mult1_dvd : ∀ i : grid0.Coords, 2048 ∣ (k0_mult1 i).toNat
  k0_mult2_dvd : ∀ i : grid0.Coords, 1024 ∣ (k0_mult2 i).toNat
  k0_off1_inb : ∀ i : grid0.Coords, ∀ a, (k0_off1 i) a + S1x1x2048.size a ≤ S1x1x8192.size a
  k0_off2_inb : ∀ i : grid0.Coords, ∀ a, (k0_off2 i) a + S1x1x1024.size a ≤ S1x1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S4x8192x3.size a
  hwx0_0 : ∀ i : grid0.Coords, EltTy.bits .f32 = 32 ∨ (Rect.block (s := S4x8192x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S4x8192x3.size a
  hwx0_1 : ∀ i : grid0.Coords, EltTy.bits .f32 = 32 ∨ (Rect.block (s := S4x8192x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8192.size a ≤ S4x1x8192.size a
  hwx0_2 : ∀ i : grid0.Coords, EltTy.bits .f32 = 32 ∨ (Rect.block (s := S4x1x8192) S1x1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

abbrev win0_0 : Pipeline.Window sig grid0 :=
  Pipeline.Window.ofSpec (Memref.whole main_arg0) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x8192.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 90
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S4x8192, .f32⟩
  | .hbm, ⟨26, _⟩ => ⟨S_, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S4x8192, .f32⟩
  | .hbm, ⟨32, _⟩ => ⟨S_, .f32⟩
  | .hbm, ⟨33, _⟩ => ⟨S4, .f32⟩
  | .hbm, ⟨34, _⟩ => ⟨S_, .f32⟩
  | .hbm, ⟨35, _⟩ => ⟨S4, .f32⟩
  | .hbm, ⟨36, _⟩ => ⟨S4, .f32⟩
  | .hbm, ⟨37, _⟩ => ⟨S4, .f32⟩
  | .hbm, ⟨38, _⟩ => ⟨S_, .f32⟩
  | .hbm, ⟨39, _⟩ => ⟨S4, .f32⟩
  | .hbm, ⟨40, _⟩ => ⟨S4, .f32⟩
  | .hbm, ⟨41, _⟩ => ⟨S_, .f32⟩
  | .hbm, ⟨42, _⟩ => ⟨S4, .f32⟩
  | .hbm, ⟨43, _⟩ => ⟨S_, .f32⟩
  | .hbm, ⟨44, _⟩ => ⟨S4, .f32⟩
  | .hbm, ⟨45, _⟩ => ⟨S4, .f32⟩
  | .hbm, ⟨46, _⟩ => ⟨S_, .f32⟩
  | .hbm, ⟨47, _⟩ => ⟨S4, .f32⟩
  | .hbm, ⟨48, _⟩ => ⟨S_, .f32⟩
  | .hbm, ⟨49, _⟩ => ⟨S4, .f32⟩
  | .hbm, ⟨50, _⟩ => ⟨S4, .f32⟩
  | .hbm, ⟨51, _⟩ => ⟨S4, .f32⟩
  | .hbm, ⟨52, _⟩ => ⟨S_, .f32⟩
  | .hbm, ⟨53, _⟩ => ⟨S4x8192, .f32⟩
  | .hbm, ⟨54, _⟩ => ⟨S4x8192, .i1⟩
  | .hbm, ⟨55, _⟩ => ⟨S4x8192, .f32⟩
  | .hbm, ⟨56, _⟩ => ⟨S_, .f32⟩
  | .hbm, ⟨57, _⟩ => ⟨S4, .f32⟩
  | .hbm, ⟨58, _⟩ => ⟨S_, .f32⟩
  | .hbm, ⟨59, _⟩ => ⟨S4, .f32⟩
  | .hbm, ⟨60, _⟩ => ⟨S4, .f32⟩
  | .hbm, ⟨61, _⟩ => ⟨S_, .f32⟩
  | .hbm, ⟨62, _⟩ => ⟨S4x8192, .f32⟩
  | .hbm, ⟨63, _⟩ => ⟨S4x8192, .i1⟩
  | .hbm, ⟨64, _⟩ => ⟨S4x8192, .f32⟩
  | .hbm, ⟨65, _⟩ => ⟨S_, .f32⟩
  | .hbm, ⟨66, _⟩ => ⟨S4, .f32⟩
  | .hbm, ⟨67, _⟩ => ⟨S_, .f32⟩
  | .hbm, ⟨68, _⟩ => ⟨S4, .f32⟩
  | .hbm, ⟨69, _⟩ => ⟨S4, .f32⟩
  | .hbm, ⟨70, _⟩ => ⟨S4, .f32⟩
  | .hbm, ⟨71, _⟩ => ⟨S_, .f32⟩
  | .hbm, ⟨72, _⟩ => ⟨S4, .f32⟩
  | .hbm, ⟨73, _⟩ => ⟨S4, .i1⟩
  | .hbm, ⟨74, _⟩ => ⟨S_, .f32⟩
  | .hbm, ⟨75, _⟩ => ⟨S4, .f32⟩
  | .hbm, ⟨76, _⟩ => ⟨S4, .f32⟩
  | .hbm, ⟨77, _⟩ => ⟨S4, .f32⟩
  | .hbm, ⟨78, _⟩ => ⟨S_, .f32⟩
  | .hbm, ⟨79, _⟩ => ⟨S4, .f32⟩
  | .hbm, ⟨80, _⟩ => ⟨S4, .i1⟩
  | .hbm, ⟨81, _⟩ => ⟨S_, .f32⟩
  | .hbm, ⟨82, _⟩ => ⟨S_, .f32⟩
  | .hbm, ⟨83, _⟩ => ⟨S4, .f32⟩
  | .hbm, ⟨84, _⟩ => ⟨S4, .f32⟩
  | .hbm, ⟨85, _⟩ => ⟨S4, .f32⟩
  | .hbm, ⟨86, _⟩ => ⟨S_, .f32⟩
  | .hbm, ⟨87, _⟩ => ⟨S_, .f32⟩
  | .hbm, ⟨88, _⟩ => ⟨S4, .f32⟩
  | .hbm, ⟨89, _⟩ => ⟨S4, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_cst_8 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_9 : Ref sig .tc := ⟨.hbm, 38, rfl⟩
abbrev main_v26 : Ref sig .tc := ⟨.hbm, 39, rfl⟩
abbrev main_v27 : Ref sig .tc := ⟨.hbm, 40, rfl⟩
abbrev main_cst_10 : Ref sig .tc := ⟨.hbm, 41, rfl⟩
abbrev main_v28 : Ref sig .tc := ⟨.hbm, 42, rfl⟩
abbrev main_cst_11 : Ref sig .tc := ⟨.hbm, 43, rfl⟩
abbrev main_v29 : Ref sig .tc := ⟨.hbm, 44, rfl⟩
abbrev main_v30 : Ref sig .tc := ⟨.hbm, 45, rfl⟩
abbrev main_cst_12 : Ref sig .tc := ⟨.hbm, 46, rfl⟩
abbrev main_v31 : Ref sig .tc := ⟨.hbm, 47, rfl⟩
abbrev main_cst_13 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_14 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_15 : Ref sig .tc := ⟨.hbm, 56, rfl⟩
abbrev main_v38 : Ref sig .tc := ⟨.hbm, 57, rfl⟩
abbrev main_cst_16 : Ref sig .tc := ⟨.hbm, 58, rfl⟩
abbrev main_v39 : Ref sig .tc := ⟨.hbm, 59, rfl⟩
abbrev main_v40 : Ref sig .tc := ⟨.hbm, 60, rfl⟩
abbrev main_cst_17 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_18 : Ref sig .tc := ⟨.hbm, 65, rfl⟩
abbrev main_v44 : Ref sig .tc := ⟨.hbm, 66, rfl⟩
abbrev main_cst_19 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_20 : Ref sig .tc := ⟨.hbm, 71, rfl⟩
abbrev main_v48 : Ref sig .tc := ⟨.hbm, 72, rfl⟩
abbrev main_v49 : Ref sig .tc := ⟨.hbm, 73, rfl⟩
abbrev main_cst_21 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_22 : Ref sig .tc := ⟨.hbm, 78, rfl⟩
abbrev main_v53 : Ref sig .tc := ⟨.hbm, 79, rfl⟩
abbrev main_v54 : Ref sig .tc := ⟨.hbm, 80, rfl⟩
abbrev main_cst_23 : Ref sig .tc := ⟨.hbm, 81, rfl⟩
abbrev main_call0_v0 : Ref sig .tc := ⟨.hbm, 82, rfl⟩
abbrev main_call0_v1 : Ref sig .tc := ⟨.hbm, 83, rfl⟩
abbrev main_v55 : Ref sig .tc := ⟨.hbm, 84, rfl⟩
abbrev main_v56 : Ref sig .tc := ⟨.hbm, 85, rfl⟩
abbrev main_cst_24 : Ref sig .tc := ⟨.hbm, 86, rfl⟩
abbrev main_call1_v0 : Ref sig .tc := ⟨.hbm, 87, rfl⟩
abbrev main_call1_v1 : Ref sig .tc := ⟨.hbm, 88, rfl⟩
abbrev main_v57 : Ref sig .tc := ⟨.hbm, 89, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S4_d1 : S4x8192.ReducesTo [1] S4
  bcast_S_S4 : S_.BroadcastsInDim S4 (![] : Fin 0 → Fin S4.rank)
  bcast_S_S4x8192 : S_.BroadcastsInDim S4x8192 (![] : Fin 0 → Fin S4x8192.rank)
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Finite.lean ====
/-
  Under the precondition every entry of both point clouds is a real number.

  The precondition says that, for each cloud, `|x| < +∞` holds at every entry (the conjunction of two "all" reductions
  by `and` of entrywise comparisons is the one-bit word 1). An extended real whose absolute value `max x (−x)` is below
  +∞ is neither +∞ nor −∞, hence a real.
-/
import proofs.«167617_j65481071394839_2_alg».proof.Defs
import proofs.«167617_j65481071394839_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Chamfer.Finite

open Idealize.ShloMosaic

instance : Subsingleton Cert.Pre_finite_inputs.S_.Idx := ⟨fun a b => funext fun d => d.elim0⟩

/-- An extended real whose absolute value is below +∞ is a real. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = (⊤ : EReal) := by
    simp [Ideal.ofBits, Ideal.ieee]
  rw [Ideal.cmpf_def, Ideal.hostAbsf_def, Ideal.absf_def, Ideal.ofBits_def, htop] at h
  induction x using EReal.rec with
  | bot => exact absurd h (by simp [Ideal.cmp])
  | coe r => exact ⟨r, rfl⟩
  | top => exact absurd h (by simp [Ideal.cmp])

/-- The printed predicate being all ones makes every entry of both arrays a real. -/
theorem reals_of_pre (x0 x1 : FVec Ideal Cert.Pre_finite_inputs.S4x8192x3 .f32)
    (h : Cert.Pre_finite_inputs.fn (F := Ideal) x0 x1 = (fun _ => 1#1)) :
    (∀ i, ∃ r : ℝ, x0 i = (r : EReal)) ∧ (∀ i, ∃ r : ℝ, x1 i = (r : EReal)) := by
  have h' := congrFun h ValueIdx.ix0
  dsimp only [Cert.Pre_finite_inputs.fn] at h'
  obtain ⟨ha, hb⟩ := IntOp.andi_eq_one.1 h'
  refine ⟨fun i => real_of_abs_lt (x0 i) ?_, fun i => real_of_abs_lt (x1 i) ?_⟩
  · exact Host.reduce_andi_all _ _ _ _ ValueIdx.ix0 ha i
  · exact Host.reduce_andi_all _ _ _ _ ValueIdx.ix0 hb i

end Cert.Chamfer.Finite

end
-- ==== Proof.Spec.lean ====
/-
  The chamfer statistics of two point clouds, as functions on the extended reals.

  For clouds `x1 x2 : [4, 8192, 3]` (batch, point, coordinate) the squared distance between point `n` of the first and
  point `m` of the second is `sqd x1 x2 b n m = Σ_k (x1[b,n,k] − x2[b,m,k])²` (three terms, summed left to right);
  `dist1[b,n] = min_m sqd` is each first-cloud point's squared distance to its nearest second-cloud point, `dist2[b,m] = min_n sqd`
  the same for the second cloud. The three reported numbers per batch are functions of these two arrays alone:
  `cdP` = (mean √dist1 + mean √dist2) / 2, `cdT` = mean dist1 + mean dist2, and `f1` = 2·p1·p2 / (p1 + p2) where
  `p_i` is the fraction of points with dist_i < 1e-4 (and 0 when p1 + p2 = 0). A minimum over an empty family is +∞.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- The point clouds' shape [batch, point, coordinate]. -/
abbrev SX : Shape := ⟨3, ![4, 8192, 3]⟩
/-- The distance arrays' shape [batch, point]. -/
abbrev SD : Shape := ⟨2, ![4, 8192]⟩
/-- One number per batch. -/
abbrev SR : Shape := ⟨1, ![4]⟩
/-- A scalar. -/
abbrev S0 : Shape := ⟨0, ![]⟩

theorem hr : SD.ReducesTo [1] SR := by decide
theorem h0 : 0 < S0.numel := by decide
theorem hbR : S0.BroadcastsInDim SR (![] : Fin 0 → Fin SR.rank) := by decide
theorem hbD : S0.BroadcastsInDim SD (![] : Fin 0 → Fin SD.rank) := by decide

/-- The squared distance between point `n` of the first cloud and point `m` of the second, in batch `b`:
    the three squared coordinate differences, added left to right. -/
def sqd (x1 x2 : FVec Ideal SX .f32) (b : Fin 4) (n m : Fin 8192) : EReal :=
  ((x1 (ix3 b n 0) - x2 (ix3 b m 0)) * (x1 (ix3 b n 0) - x2 (ix3 b m 0))
    + (x1 (ix3 b n 1) - x2 (ix3 b m 1)) * (x1 (ix3 b n 1) - x2 (ix3 b m 1)))
    + (x1 (ix3 b n 2) - x2 (ix3 b m 2)) * (x1 (ix3 b n 2) - x2 (ix3 b m 2))

/-- Each first-cloud point's squared distance to its nearest second-cloud point. -/
def dist1 (x1 x2 : FVec Ideal SX .f32) : FVec Ideal SD .f32 :=
  fun j => Finset.univ.inf fun m : Fin 8192 => sqd x1 x2 (j 0) (j 1) m

/-- Each second-cloud point's squared distance to its nearest first-cloud point. -/
def dist2 (x1 x2 : FVec Ideal SX .f32) : FVec Ideal SD .f32 :=
  fun j => Finset.univ.inf fun n : Fin 8192 => sqd x1 x2 (j 0) n (j 1)

/-- (mean √d1 + mean √d2) / 2, per batch. -/
def cdP (d1 d2 : FVec Ideal SD .f32) : FVec Ideal SR .f32 :=
  Host.divf (F := Ideal) (addf (F := Ideal) (Host.divf (F := Ideal) (Host.reduceAdd (F := Ideal) (Host.sqrt (F := Ideal) d1) (constant (F := Ideal) S0 .f32 0x00000000#32) hr h0) (broadcastInDim SR ![] hbR (constant (F := Ideal) S0 .f32 0x46000000#32))) (Host.divf (F := Ideal) (Host.reduceAdd (F := Ideal) (Host.sqrt (F := Ideal) d2) (constant (F := Ideal) S0 .f32 0x00000000#32) hr h0) (broadcastInDim SR ![] hbR (constant (F := Ideal) S0 .f32 0x46000000#32)))) (broadcastInDim SR ![] hbR (constant (F := Ideal) S0 .f32 0x40000000#32))

/-- mean d1 + mean d2, per batch. -/
def cdT (d1 d2 : FVec Ideal SD .f32) : FVec Ideal SR .f32 :=
  addf (F := Ideal) (Host.divf (F := Ideal) (Host.reduceAdd (F := Ideal) d1 (constant (F := Ideal) S0 .f32 0x00000000#32) hr h0) (broadcastInDim SR ![] hbR (constant (F := Ideal) S0 .f32 0x46000000#32))) (Host.divf (F := Ideal) (Host.reduceAdd (F := Ideal) d2 (constant (F := Ideal) S0 .f32 0x00000000#32) hr h0) (broadcastInDim SR ![] hbR (constant (F := Ideal) S0 .f32 0x46000000#32)))

/-- 2·p1·p2 / (p1 + p2) with p_i the fraction of entries of d_i below the threshold; 0 where p1 + p2 is not positive. -/
def f1 (d1 d2 : FVec Ideal SD .f32) : FVec Ideal SR .f32 :=
  select (cmpf (F := Ideal) .ogt (addf (F := Ideal) (Host.divf (F := Ideal) (Host.reduceAdd (F := Ideal) (uitofp (F := Ideal) .f32 (cmpf (F := Ideal) .olt d1 (broadcastInDim SD ![] hbD (constant (F := Ideal) S0 .f32 0x38D1B717#32)))) (constant (F := Ideal) S0 .f32 0x00000000#32) hr h0) (broadcastInDim SR ![] hbR (constant (F := Ideal) S0 .f32 0x46000000#32))) (Host.divf (F := Ideal) (Host.reduceAdd (F := Ideal) (uitofp (F := Ideal) .f32 (cmpf (F := Ideal) .olt d2 (broadcastInDim SD ![] hbD (constant (F := Ideal) S0 .f32 0x38D1B717#32)))) (constant (F := Ideal) S0 .f32 0x00000000#32) hr h0) (broadcastInDim SR ![] hbR (constant (F := Ideal) S0 .f32 0x46000000#32)))) (broadcastInDim SR ![] hbR (constant (F := Ideal) S0 .f32 0x00000000#32))) (Host.divf (F := Ideal) (mulf (F := Ideal) (mulf (F := Ideal) (broadcastInDim SR ![] hbR (constant (F := Ideal) S0 .f32 0x40000000#32)) (Host.divf (F := Ideal) (Host.reduceAdd (F := Ideal) (uitofp (F := Ideal) .f32 (cmpf (F := Ideal) .olt d1 (broadcastInDim SD ![] hbD (constant (F := Ideal) S0 .f32 0x38D1B717#32)))) (constant (F := Ideal) S0 .f32 0x00000000#32) hr h0) (broadcastInDim SR ![] hbR (constant (F := Ideal) S0 .f32 0x46000000#32)))) (Host.divf (F := Ideal) (Host.reduceAdd (F := Ideal) (uitofp (F := Ideal) .f32 (cmpf (F := Ideal) .olt d2 (broadcastInDim SD ![] hbD (constant (F := Ideal) S0 .f32 0x38D1B717#32)))) (constant (F := Ideal) S0 .f32 0x00000000#32) hr h0) (broadcastInDim SR ![] hbR (constant (F := Ideal) S0 .f32 0x46000000#32)))) (select (cmpf (F := Ideal) .ogt (addf (F := Ideal) (Host.divf (F := Ideal) (Host.reduceAdd (F := Ideal) (uitofp (F := Ideal) .f32 (cmpf (F := Ideal) .olt d1 (broadcastInDim SD ![] hbD (constant (F := Ideal) S0 .f32 0x38D1B717#32)))) (constant (F := Ideal) S0 .f32 0x00000000#32) hr h0) (broadcastInDim SR ![] hbR (constant (F := Ideal) S0 .f32 0x46000000#32))) (Host.divf (F := Ideal) (Host.reduceAdd (F := Ideal) (uitofp (F := Ideal) .f32 (cmpf (F := Ideal) .olt d2 (broadcastInDim SD ![] hbD (constant (F := Ideal) S0 .f32 0x38D1B717#32)))) (constant (F := Ideal) S0 .f32 0x00000000#32) hr h0) (broadcastInDim SR ![] hbR (constant (F := Ideal) S0 .f32 0x46000000#32)))) (broadcastInDim SR ![] hbR (constant (F := Ideal) S0 .f32 0x00000000#32))) (addf (F := Ideal) (Host.divf (F := Ideal) (Host.reduceAdd (F := Ideal) (uitofp (F := Ideal) .f32 (cmpf (F := Ideal) .olt d1 (broadcastInDim SD ![] hbD (constant (F := Ideal) S0 .f32 0x38D1B717#32)))) (constant (F := Ideal) S0 .f32 0x00000000#32) hr h0) (broadcastInDim SR ![] hbR (constant (F := Ideal) S0 .f32 0x46000000#32))) (Host.divf (F := Ideal) (Host.reduceAdd (F := Ideal) (uitofp (F := Ideal) .f32 (cmpf (F := Ideal) .olt d2 (broadcastInDim SD ![] hbD (constant (F := Ideal) S0 .f32 0x38D1B717#32)))) (constant (F := Ideal) S0 .f32 0x00000000#32) hr h0) (broadcastInDim SR ![] hbR (constant (F := Ideal) S0 .f32 0x46000000#32)))) (broadcastInDim SR ![] hbR (id (constant (F := Ideal) S0 .f32 0x3F800000#32))))) (broadcastInDim SR ![] hbR (id (constant (F := Ideal) S0 .f32 0x00000000#32)))

end Cert.Chamfer

end
-- ==== Proof.Algebra.lean ====
/-
  The one algebraic law behind the comparison of the two ways of computing a squared distance.

  For two points a, b of real 3-space, the sum of the three squared coordinate differences equals
  |a|² + |b|² − 2⟨a, b⟩, and that number is a sum of squares, hence ≥ 0, so clamping it below at 0 changes nothing.
  The law is proved over ℝ and transported to the extended reals, where it holds for finite (real) coordinates.
  It is stated in the exact association order the two computations use: the expanded form adds each squared norm to a
  zero start value, subtracts twice the inner product, and takes the maximum with zero; the direct form adds the three
  squared differences left to right.
-/
import Idealize.ShloMosaic.PureOps.Ideal
import Idealize.ShloMosaic.PureOps.Ideal.Laws
import Mathlib.Tactic

noncomputable section

namespace Cert.Chamfer.Algebra

open Idealize.ShloMosaic

/-- The pattern `0x40000000` denotes the real number 2. -/
theorem ofBits_two : Ideal.ofBits .f32 0x40000000#32 = ((2 : ℝ) : EReal) := by
  simp [Ideal.ofBits, Ideal.ieee, -EReal.coe_mul]; norm_num

/-- The pattern `0x00000000` denotes the real number 0. -/
theorem ofBits_zero : Ideal.ofBits .f32 0x00000000#32 = ((0 : ℝ) : EReal) := by
  rw [Ideal.ofBits_zero_f32]; rfl

/-- The pattern `0x7F800000` denotes +∞, the top of the extended reals. -/
theorem ofBits_inf : Ideal.ofBits .f32 0x7F800000#32 = (⊤ : EReal) := by
  simp [Ideal.ofBits, Ideal.ieee]

/-- The law over the reals: |a|² + |b|² − 2⟨a,b⟩, clamped below at 0, is the sum of the squared coordinate differences. -/
theorem real_law (a0 a1 a2 b0 b1 b2 : ℝ) :
    max (((0 + (a0 * a0 + a1 * a1 + a2 * a2)) + (0 + (b0 * b0 + b1 * b1 + b2 * b2))) - 2 * (a0 * b0 + a1 * b1 + a2 * b2)) 0
      = ((a0 - b0) * (a0 - b0) + (a1 - b1) * (a1 - b1)) + (a2 - b2) * (a2 - b2) := by
  have h : ((0 + (a0 * a0 + a1 * a1 + a2 * a2)) + (0 + (b0 * b0 + b1 * b1 + b2 * b2))) - 2 * (a0 * b0 + a1 * b1 + a2 * b2)
      = ((a0 - b0) * (a0 - b0) + (a1 - b1) * (a1 - b1)) + (a2 - b2) * (a2 - b2) := by ring
  rw [h]
  exact max_eq_left (by nlinarith [mul_self_nonneg (a0 - b0), mul_self_nonneg (a1 - b1), mul_self_nonneg (a2 - b2)])

/-- The law over the extended reals, for finite coordinates, in the association order of the expanded computation
    (left) and of the direct one (right). -/
theorem expand_eq_sqd (a b : Fin 3 → EReal) (ha : ∀ k, ∃ r : ℝ, a k = (r : EReal)) (hb : ∀ k, ∃ r : ℝ, b k = (r : EReal)) :
    max (((Ideal.ofBits .f32 0x00000000#32 + ∑ k : Fin 3, a k * a k) + (Ideal.ofBits .f32 0x00000000#32 + ∑ k : Fin 3, b k * b k))
          - Ideal.ofBits .f32 0x40000000#32 * ∑ k : Fin 3, a k * b k) (Ideal.ofBits .f32 0x00000000#32)
      = ((a 0 - b 0) * (a 0 - b 0) + (a 1 - b 1) * (a 1 - b 1)) + (a 2 - b 2) * (a 2 - b 2) := by
  obtain ⟨a0, h0⟩ := ha 0
  obtain ⟨a1, h1⟩ := ha 1
  obtain ⟨a2, h2⟩ := ha 2
  obtain ⟨b0, g0⟩ := hb 0
  obtain ⟨b1, g1⟩ := hb 1
  obtain ⟨b2, g2⟩ := hb 2
  rw [Fin.sum_univ_three, Fin.sum_univ_three, Fin.sum_univ_three, h0, h1, h2, g0, g1, g2, ofBits_two, ofBits_zero]
  have hl := congrArg (fun r : ℝ => (r : EReal)) (real_law a0 a1 a2 b0 b1 b2)
  simp only [EReal.coe_strictMono.monotone.map_max, EReal.coe_add, EReal.coe_sub, EReal.coe_mul] at hl
  exact hl

end Cert.Chamfer.Algebra

end
-- ==== Proof.Ref.Dist.lean ====
/-
  The reference computation's two distance arrays are the specification's, and its run ends at the specification's
  three statistics of them.

  The reference forms, for every pair (n, m) of points of a batch b, the number
  max(|x0[b,n]|² + |x1[b,m]|² − 2⟨x0[b,n], x1[b,m]⟩, 0), and takes its minimum over m (first array) and over n (second).
  For finite coordinates that number is the squared distance Σ_k (x0[b,n,k] − x1[b,m,k])² (the algebraic law), and a
  minimum folded from +∞ over one axis is the infimum over that axis's coordinates. The remaining operations of the
  reference are, term for term, the specification's three functions of the two arrays.
-/
import proofs.«167617_j65481071394839_2_alg».proof.Proof.RefRead
import proofs.«167617_j65481071394839_2_alg».proof.Proof.Spec
import proofs.«167617_j65481071394839_2_alg».proof.Proof.Algebra
import Idealize.ShloMosaic.PureOps.Reduce

noncomputable section

namespace Cert.ReferenceIdeal.RefValue

open Cert.ReferenceIdeal Cert.ReferenceIdeal.ReadP Cert.ReferenceIdeal.Gen Idealize.ShloMosaic Idealize.ShloMosaic.ValueIdx Idealize.ShloMosaic.TcCoe Idealize.SL.Sem Idealize.ShloMosaic.StableHlo

/-! ## The pairwise array at an index given by its coordinates -/

/-- The clamped expanded form at (b, n, m), read through the broadcasts, the two sums of squares and the contraction. -/
theorem v14_at (x0 x1 : (⟨S4x8192x3, .f32⟩ : BufTy).Contents (Elt Ideal)) (b : Fin 4) (n m : Fin 8192) :
    val_main_v14 (F := Ideal) x0 x1 (ix3 b n m) =
      max (((Ideal.ofBits .f32 0x00000000#32 + ∑ k : Fin 3, x0 (ix3 b n k) * x0 (ix3 b n k))
            + (Ideal.ofBits .f32 0x00000000#32 + ∑ k : Fin 3, x1 (ix3 b m k) * x1 (ix3 b m k)))
          - Ideal.ofBits .f32 0x40000000#32 * ∑ k : Fin 3, x0 (ix3 b n k) * x1 (ix3 b m k)) (Ideal.ofBits .f32 0x00000000#32) := by
  have hI0 : ∀ k : Fin 3, idx_main_v1 (idx_main_v5 (idx_main_v7 (ix3 b n m))) k = ix3 b n k := fun k =>
    funext fun a => by match a with | ⟨0, _⟩ => rfl | ⟨1, _⟩ => rfl | ⟨2, _⟩ => rfl
  have hI1 : ∀ k : Fin 3, idx_main_v3 (idx_main_v6 (idx_main_v8 (ix3 b n m))) k = ix3 b m k := fun k =>
    funext fun a => by match a with | ⟨0, _⟩ => rfl | ⟨1, _⟩ => rfl | ⟨2, _⟩ => rfl
  have hL : ∀ k : Fin 3, lidx_main_v4 (ix3 b n m) k = ix3 b n k := fun k =>
    funext fun a => by match a with | ⟨0, _⟩ => rfl | ⟨1, _⟩ => rfl | ⟨2, _⟩ => rfl
  have hR : ∀ k : Fin 3, ridx_main_v4 (ix3 b n m) k = ix3 b m k := fun k =>
    funext fun a => by match a with | ⟨0, _⟩ => rfl | ⟨1, _⟩ => rfl | ⟨2, _⟩ => rfl
  rw [val_main_v14_apply, val_main_v12_apply, val_main_v9_apply, val_main_v11_apply, val_main_v7_apply, val_main_v5_apply,
    val_main_v1_apply, val_main_v8_apply, val_main_v6_apply, val_main_v3_apply, val_main_v4_apply, val_main_v10_apply,
    val_main_v13_apply, val_main_cst_apply, val_main_cst_0_apply, val_main_cst_1_apply, val_main_cst_2_apply]
  simp only [val_main_v0_apply, val_main_v2_apply, hI0, hI1, hL, hR]
  rfl

/-- For finite coordinates the pairwise array holds the squared distances. -/
theorem v14_eq_sqd (x0 x1 : (⟨S4x8192x3, .f32⟩ : BufTy).Contents (Elt Ideal))
    (h0 : ∀ i, ∃ r : ℝ, x0 i = (r : EReal)) (h1 : ∀ i, ∃ r : ℝ, x1 i = (r : EReal)) (b : Fin 4) (n m : Fin 8192) :
    val_main_v14 (F := Ideal) x0 x1 (ix3 b n m) = Cert.Chamfer.sqd x0 x1 b n m := by
  rw [v14_at]
  exact Cert.Chamfer.Algebra.expand_eq_sqd (fun k => x0 (ix3 b n k)) (fun k => x1 (ix3 b m k)) (fun _ => h0 _) (fun _ => h1 _)

/-! ## A minimum folded from +∞ over one axis is the infimum over that axis -/

theorem red2 : S4x8192x8192.Reduces [2] S4x8192 := by decide
theorem red1 : S4x8192x8192.Reduces [1] S4x8192 := by decide

/-- Inserting a coordinate on the last axis of (b, n) gives (b, n, k). -/
theorem lift_d2 (j : S4x8192.Idx) (k : Fin 8192) : red2.lift j k = ix3 (j 0) (j 1) k :=
  funext fun a => Fin.ext (by match a with | ⟨0, _⟩ => rfl | ⟨1, _⟩ => rfl | ⟨2, _⟩ => rfl)

/-- Inserting a coordinate on the middle axis of (b, m) gives (b, k, m). -/
theorem lift_d1 (j : S4x8192.Idx) (k : Fin 8192) : red1.lift j k = ix3 (j 0) k (j 1) :=
  funext fun a => Fin.ext (by match a with | ⟨0, _⟩ => rfl | ⟨1, _⟩ => rfl | ⟨2, _⟩ => rfl)

/-- The minimum over the last axis, from +∞: the infimum over the last coordinate. -/
theorem min_fold_d2 (y : (⟨S4x8192x8192, .f32⟩ : BufTy).Contents (Elt Ideal)) (j : S4x8192.Idx) :
    (Host.reduce (α := Ideal .f32) (FloatOps.minimumf (F := Ideal) (φ := .f32)) y (val_main_cst_3 (F := Ideal)) reducesTo_S4x8192x8192_S4x8192_d2 h_S_ : S4x8192.Idx → Ideal .f32) j
      = Finset.univ.inf fun m : Fin 8192 => y (ix3 (j 0) (j 1) m) := by
  rw [Host.reduce_eq_fold_single (FloatOps.minimumf (F := Ideal) (φ := .f32)) y _ reducesTo_S4x8192x8192_S4x8192_d2 red2 h_S_ j]
  rw [val_main_cst_3_apply]
  show Finset.fold _ (Ideal.ofBits .f32 0x7F800000#32) _ _ = _
  rw [Cert.Chamfer.Algebra.ofBits_inf]
  unfold Finset.inf
  exact Finset.fold_congr (fun k _ => congrArg y (lift_d2 j k))

/-- The minimum over the middle axis, from +∞: the infimum over the middle coordinate. -/
theorem min_fold_d1 (y : (⟨S4x8192x8192, .f32⟩ : BufTy).Contents (Elt Ideal)) (j : S4x8192.Idx) :
    (Host.reduce (α := Ideal .f32) (FloatOps.minimumf (F := Ideal) (φ := .f32)) y (val_main_cst_4 (F := Ideal)) reducesTo_S4x8192x8192_S4x8192_d1 h_S_ : S4x8192.Idx → Ideal .f32) j
      = Finset.univ.inf fun n : Fin 8192 => y (ix3 (j 0) n (j 1)) := by
  rw [Host.reduce_eq_fold_single (FloatOps.minimumf (F := Ideal) (φ := .f32)) y _ reducesTo_S4x8192x8192_S4x8192_d1 red1 h_S_ j]
  rw [val_main_cst_4_apply]
  show Finset.fold _ (Ideal.ofBits .f32 0x7F800000#32) _ _ = _
  rw [Cert.Chamfer.Algebra.ofBits_inf]
  unfold Finset.inf
  exact Finset.fold_congr (fun k _ => congrArg y (lift_d1 j k))

/-! ## The two distance arrays -/

/-- The reference's first distance array is the specification's: each first-cloud point's squared distance to the
    nearest second-cloud point. -/
theorem refDist1_eq (x0 x1 : (⟨S4x8192x3, .f32⟩ : BufTy).Contents (Elt Ideal))
    (h0 : ∀ i, ∃ r : ℝ, x0 i = (r : EReal)) (h1 : ∀ i, ∃ r : ℝ, x1 i = (r : EReal)) :
    val_main_v15 (F := Ideal) x0 x1 = Cert.Chamfer.dist1 x0 x1 := by
  funext j
  unfold val_main_v15
  rw [min_fold_d2]
  unfold Cert.Chamfer.dist1
  exact congrArg (Finset.inf Finset.univ) (funext fun m => v14_eq_sqd x0 x1 h0 h1 (j 0) (j 1) m)

/-- The reference's second distance array is the specification's: each second-cloud point's squared distance to the
    nearest first-cloud point. -/
theorem refDist2_eq (x0 x1 : (⟨S4x8192x3, .f32⟩ : BufTy).Contents (Elt Ideal))
    (h0 : ∀ i, ∃ r : ℝ, x0 i = (r : EReal)) (h1 : ∀ i, ∃ r : ℝ, x1 i = (r : EReal)) :
    val_main_v16 (F := Ideal) x0 x1 = Cert.Chamfer.dist2 x0 x1 := by
  funext j
  unfold val_main_v16
  rw [min_fold_d1]
  unfold Cert.Chamfer.dist2
  exact congrArg (Finset.inf Finset.univ) (funext fun n => v14_eq_sqd x0 x1 h0 h1 (j 0) n (j 1))

/-! ## The remaining operations are the specification's three statistics of the two arrays -/

theorem v27_eq_cdP (x0 x1 : (⟨S4x8192x3, .f32⟩ : BufTy).Contents (Elt Ideal)) :
    val_main_v27 (F := Ideal) x0 x1 = Cert.Chamfer.cdP (val_main_v15 (F := Ideal) x0 x1) (val_main_v16 (F := Ideal) x0 x1) := rfl

theorem v34_eq_cdT (x0 x1 : (⟨S4x8192x3, .f32⟩ : BufTy).Contents (Elt Ideal)) :
    val_main_v34 (F := Ideal) x0 x1 = Cert.Chamfer.cdT (val_main_v15 (F := Ideal) x0 x1) (val_main_v16 (F := Ideal) x0 x1) := rfl

theorem v57_eq_f1 (x0 x1 : (⟨S4x8192x3, .f32⟩ : BufTy).Contents (Elt Ideal)) :
    val_main_v57 (F := Ideal) x0 x1 = Cert.Chamfer.f1 (val_main_v15 (F := Ideal) x0 x1) (val_main_v16 (F := Ideal) x0 x1) := rfl

/-- Every weakly fair execution of the reference terminates with its three results at the specification's three
    statistics of the reference's two distance arrays, and its two arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
        r.2.mem ((c.tc : Thread nD τ).loc main_v27)
          = Cert.Chamfer.cdP (val_main_v15 (F := Ideal) (m ((c.tc : Thread nD τ).loc main_arg0)) (m ((c.tc : Thread nD τ).loc main_arg1)))
              (val_main_v16 (F := Ideal) (m ((c.tc : Thread nD τ).loc main_arg0)) (m ((c.tc : Thread nD τ).loc main_arg1)))
      ∧ r.2.mem ((c.tc : Thread nD τ).loc main_v34)
          = Cert.Chamfer.cdT (val_main_v15 (F := Ideal) (m ((c.tc : Thread nD τ).loc main_arg0)) (m ((c.tc : Thread nD τ).loc main_arg1)))
              (val_main_v16 (F := Ideal) (m ((c.tc : Thread nD τ).loc main_arg0)) (m ((c.tc : Thread nD τ).loc main_arg1)))
      ∧ r.2.mem ((c.tc : Thread nD τ).loc main_v57)
          = Cert.Chamfer.f1 (val_main_v15 (F := Ideal) (m ((c.tc : Thread nD τ).loc main_arg0)) (m ((c.tc : Thread nD τ).loc main_arg1)))
              (val_main_v16 (F := Ideal) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun _ h c =>
    ⟨(h c).1.trans ((val_main_v27_eq (F := Ideal) _ _).trans (v27_eq_cdP _ _)),
     (h c).2.1.trans ((val_main_v34_eq (F := Ideal) _ _).trans (v34_eq_cdT _ _)),
     (h c).2.2.1.trans ((val_main_v57_eq (F := Ideal) m c).trans (v57_eq_f1 _ _)),
     (h c).2.2.2.1, (h c).2.2.2.2⟩)
    (Cert.ReferenceIdeal.ValueP.run (F := Ideal) m ρ)

end Cert.ReferenceIdeal.RefValue

end
-- ==== Proof.KI.Host.lean ====
/- @main of the idealized kernel program around its one region: the host lines after the region (four stretches,
   67 operations), what they may touch, that they allocate nothing and write no array of the pipeline, the argument
   arrays' contents at the region's entry and after the tail, each window's block at a grid point, and the frame
   claim's post from a frame run. Everything is generic in the float model. -/
import proofs.«167617_j65481071394839_2_alg».proof.Proof.Gen.KernelIdeal.Launch
import proofs.«167617_j65481071394839_2_alg».proof.Proof.Gen.KernelIdeal.Skeleton
import proofs.«167617_j65481071394839_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The four stretches of host lines after the region, in order: 59 operations of @main, the three of the first
    inlined selection, two more of @main, the three of the second inlined selection. -/
abbrev tailOps : List (List (HloOp τ sig (Elt F))) := [hostOps1, hostOps1_1, hostOps1_2, hostOps1_3]

/-- Core c's TensorCore buffer contents when the region is entered, as a valuation: no host operation precedes the
    region, so these are the launch contents. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

/-- @main around the region: nothing before it, the region, the four stretches after it; it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3]) :=
  Pipeline.hmain_around cfgs 0 defs₀ 𝒱₀ m main [] tailOps (by simp only [List.Forall])
    (by simp only [List.Forall]) main_chain

/-- The lines after the region touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop

/-! ### No line after the region writes an array of the pipeline -/

/-- The pipeline's four arrays: the two arguments and the two results of the region. -/
theorem arrRef_cases (w : Fin cfg0.W) : Pipeline.arrRef spec0 w = main_arg0 ∨ Pipeline.arrRef spec0 w = main_arg1
    ∨ Pipeline.arrRef spec0 w = main_v0_0 ∨ Pipeline.arrRef spec0 w = main_v0_1 := by
  revert w; decide

/-- Reference b is written by no operation of the list: each operation writes its own result buffer only, and that
    is another reference. -/
local macro "no_write" ops:ident : tactic => `(tactic| (
  simp only [$ops:ident, List.Forall, StableHlo.TRef.unary, StableHlo.TRef.ternary, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

theorem hostOps1_keeps_arg0 : (hostOps1 : List (HloOp τ sig (Elt F))).Forall fun op => Proc.devRef .tc main_arg0 ∉ op.writes := by no_write hostOps1
theorem hostOps1_keeps_arg1 : (hostOps1 : List (HloOp τ sig (Elt F))).Forall fun op => Proc.devRef .tc main_arg1 ∉ op.writes := by no_write hostOps1
theorem hostOps1_keeps_v0_0 : (hostOps1 : List (HloOp τ sig (Elt F))).Forall fun op => Proc.devRef .tc main_v0_0 ∉ op.writes := by no_write hostOps1
theorem hostOps1_keeps_v0_1 : (hostOps1 : List (HloOp τ sig (Elt F))).Forall fun op => Proc.devRef .tc main_v0_1 ∉ op.writes := by no_write hostOps1
theorem hostOps1_1_keeps_arg0 : (hostOps1_1 : List (HloOp τ sig (Elt F))).Forall fun op => Proc.devRef .tc main_arg0 ∉ op.writes := by no_write hostOps1_1
theorem hostOps1_1_keeps_arg1 : (hostOps1_1 : List (HloOp τ sig (Elt F))).Forall fun op => Proc.devRef .tc main_arg1 ∉ op.writes := by no_write hostOps1_1
theorem hostOps1_1_keeps_v0_0 : (hostOps1_1 : List (HloOp τ sig (Elt F))).Forall fun op => Proc.devRef .tc main_v0_0 ∉ op.writes := by no_write hostOps1_1
theorem hostOps1_1_keeps_v0_1 : (hostOps1_1 : List (HloOp τ sig (Elt F))).Forall fun op => Proc.devRef .tc main_v0_1 ∉ op.writes := by no_write hostOps1_1
theorem hostOps1_2_keeps_arg0 : (hostOps1_2 : List (HloOp τ sig (Elt F))).Forall fun op => Proc.devRef .tc main_arg0 ∉ op.writes := by no_write hostOps1_2
theorem hostOps1_2_keeps_arg1 : (hostOps1_2 : List (HloOp τ sig (Elt F))).Forall fun op => Proc.devRef .tc main_arg1 ∉ op.writes := by no_write hostOps1_2
theorem hostOps1_2_keeps_v0_0 : (hostOps1_2 : List (HloOp τ sig (Elt F))).Forall fun op => Proc.devRef .tc main_v0_0 ∉ op.writes := by no_write hostOps1_2
theorem hostOps1_2_keeps_v0_1 : (hostOps1_2 : List (HloOp τ sig (Elt F))).Forall fun op => Proc.devRef .tc main_v0_1 ∉ op.writes := by no_write hostOps1_2
theorem hostOps1_3_keeps_arg0 : (hostOps1_3 : List (HloOp τ sig (Elt F))).Forall fun op => Proc.devRef .tc main_arg0 ∉ op.writes := by no_write hostOps1_3
theorem hostOps1_3_keeps_arg1 : (hostOps1_3 : List (HloOp τ sig (Elt F))).Forall fun op => Proc.devRef .tc main_arg1 ∉ op.writes := by no_write hostOps1_3
theorem hostOps1_3_keeps_v0_0 : (hostOps1_3 : List (HloOp τ sig (Elt F))).Forall fun op => Proc.devRef .tc main_v0_0 ∉ op.writes := by no_write hostOps1_3
theorem hostOps1_3_keeps_v0_1 : (hostOps1_3 : List (HloOp τ sig (Elt F))).Forall fun op => Proc.devRef .tc main_v0_1 ∉ op.writes := by no_write hostOps1_3

/-- And write no array of the pipeline (each writes only its own result buffer, which is no array). -/
theorem sfx_keeps : ∀ ops ∈ (tailOps : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases arrRef_cases w with e | e | e | e <;> rw [e] <;> rcases hops with rfl | rfl | rfl | rfl
  · exact (List.forall_iff_forall_mem.mp hostOps1_keeps_arg0) op hop
  · exact (List.forall_iff_forall_mem.mp hostOps1_1_keeps_arg0) op hop
  · exact (List.forall_iff_forall_mem.mp hostOps1_2_keeps_arg0) op hop
  · exact (List.forall_iff_forall_mem.mp hostOps1_3_keeps_arg0) op hop
  · exact (List.forall_iff_forall_mem.mp hostOps1_keeps_arg1) op hop
  · exact (List.forall_iff_forall_mem.mp hostOps1_1_keeps_arg1) op hop
  · exact (List.forall_iff_forall_mem.mp hostOps1_2_keeps_arg1) op hop
  · exact (List.forall_iff_forall_mem.mp hostOps1_3_keeps_arg1) op hop
  · exact (List.forall_iff_forall_mem.mp hostOps1_keeps_v0_0) op hop
  · exact (List.forall_iff_forall_mem.mp hostOps1_1_keeps_v0_0) op hop
  · exact (List.forall_iff_forall_mem.mp hostOps1_2_keeps_v0_0) op hop
  · exact (List.forall_iff_forall_mem.mp hostOps1_3_keeps_v0_0) op hop
  · exact (List.forall_iff_forall_mem.mp hostOps1_keeps_v0_1) op hop
  · exact (List.forall_iff_forall_mem.mp hostOps1_1_keeps_v0_1) op hop
  · exact (List.forall_iff_forall_mem.mp hostOps1_2_keeps_v0_1) op hop
  · exact (List.forall_iff_forall_mem.mp hostOps1_3_keeps_v0_1) op hop

/-! ## The argument arrays -/

/-- No host operation precedes the region: it finds main_arg0 as launched. -/
theorem V_main_arg0 (c : Dev nD) : V m c main_arg0 = m ((c : Thread nD τ).loc main_arg0) := rfl
/-- No host operation precedes the region: it finds main_arg1 as launched. -/
theorem V_main_arg1 (c : Dev nD) : V m c main_arg1 = m ((c : Thread nD τ).loc main_arg1) := rfl

/-- Membership in the flattened tail is membership in one of its four stretches. -/
theorem mem_tail {op : HloOp τ sig (Elt F)} (hop : op ∈ List.flatten (tailOps : List (List (HloOp τ sig (Elt F))))) :
    op ∈ (hostOps1 : List (HloOp τ sig (Elt F))) ∨ op ∈ (hostOps1_1 : List (HloOp τ sig (Elt F)))
      ∨ op ∈ (hostOps1_2 : List (HloOp τ sig (Elt F))) ∨ op ∈ (hostOps1_3 : List (HloOp τ sig (Elt F))) := by
  rw [List.mem_flatten] at hop
  obtain ⟨ops, hops, hop⟩ := hop
  simp only [List.mem_cons, List.mem_nil_iff, or_false] at hops
  rcases hops with rfl | rfl | rfl | rfl
  · exact Or.inl hop
  · exact Or.inr (Or.inl hop)
  · exact Or.inr (Or.inr (Or.inl hop))
  · exact Or.inr (Or.inr (Or.inr hop))

/-- No line of the flattened tail writes main_arg0. -/
theorem tail_keeps_arg0 : ∀ op ∈ List.flatten (tailOps : List (List (HloOp τ sig (Elt F)))), Proc.devRef .tc main_arg0 ∉ op.writes := by
  intro op hop
  rcases mem_tail hop with h | h | h | h
  · exact (List.forall_iff_forall_mem.mp hostOps1_keeps_arg0) op h
  · exact (List.forall_iff_forall_mem.mp hostOps1_1_keeps_arg0) op h
  · exact (List.forall_iff_forall_mem.mp hostOps1_2_keeps_arg0) op h
  · exact (List.forall_iff_forall_mem.mp hostOps1_3_keeps_arg0) op h
/-- No line of the flattened tail writes main_arg1. -/
theorem tail_keeps_arg1 : ∀ op ∈ List.flatten (tailOps : List (List (HloOp τ sig (Elt F)))), Proc.devRef .tc main_arg1 ∉ op.writes := by
  intro op hop
  rcases mem_tail hop with h | h | h | h
  · exact (List.forall_iff_forall_mem.mp hostOps1_keeps_arg1) op h
  · exact (List.forall_iff_forall_mem.mp hostOps1_1_keeps_arg1) op h
  · exact (List.forall_iff_forall_mem.mp hostOps1_2_keeps_arg1) op h
  · exact (List.forall_iff_forall_mem.mp hostOps1_3_keeps_arg1) op h

/-- main_arg0 is the array of input window 0: the region never writes it back, and no host operation after the region
    writes it, so for proof data whose arrays are the region-entry contents it ends as launched. -/
theorem W_main_arg0 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ tail_keeps_arg0]
  exact (Pipeline.withArrays_arr spec0 launch0.win.arr_inj c _ _ 0).trans
    (((dats 0 c).arrAt_in 0 rfl _).trans ((hA c 0).trans (V_main_arg0 m c)))
/-- The same for main_arg1, the array of input window 1. -/
theorem W_main_arg1 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ tail_keeps_arg1]
  exact (Pipeline.withArrays_arr spec0 launch0.win.arr_inj c _ _ 1).trans
    (((dats 0 c).arrAt_in 1 rfl _).trans ((hA c 1).trans (V_main_arg1 m c)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for input window 1. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run to the frame
    post read at the two argument arrays — each a staged input, never written back — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c)))⟩) h

end Cert.KernelIdeal.Hand

end
-- ==== Proof.KI.Tail.lean ====
/- What @main's three results are after the host lines that follow the region, at the ideal float model: the
   specification's three statistics of the two distance arrays the region leaves (each reshaped from [4,1,8192] to
   [4,8192]). The 67 host operations are folded once over an arbitrary valuation; the region's exit contents are
   then read at the two output arrays. -/
import proofs.«167617_j65481071394839_2_alg».proof.Proof.Spec
import proofs.«167617_j65481071394839_2_alg».proof.Proof.KI.Host

set_option maxRecDepth 16384

noncomputable section

namespace Cert.KernelIdeal.HandTail

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.KernelIdeal.Hand

/-! ## The tail over any valuation -/

/-- A [4,1,8192] array read as [4,8192]: what the tail's two reshapes compute. -/
abbrev flat2 (a : FVec Ideal S4x1x8192 .f32) : FVec Ideal S4x8192 .f32 :=
  shapeCast S4x8192 a shapeCasts_S4x1x8192_S4x8192

/-- The first result: half the sum of the two mean roots. -/
theorem tail_v13 (W : Valuation τ sig (Elt Ideal)) :
    StableHlo.after (List.flatten (tailOps : List (List (HloOp τ sig (Elt Ideal))))) W (Proc.devRef .tc main_v13)
      = Cert.Chamfer.cdP (flat2 (W (Proc.devRef .tc main_v0_0))) (flat2 (W (Proc.devRef .tc main_v0_1))) := by
  simp only [List.flatten_cons, List.flatten_nil, List.append_nil, List.cons_append, List.nil_append]
  after_results_simp
  rfl

/-- The second result: the sum of the two means. -/
theorem tail_v20 (W : Valuation τ sig (Elt Ideal)) :
    StableHlo.after (List.flatten (tailOps : List (List (HloOp τ sig (Elt Ideal))))) W (Proc.devRef .tc main_v20)
      = Cert.Chamfer.cdT (flat2 (W (Proc.devRef .tc main_v0_0))) (flat2 (W (Proc.devRef .tc main_v0_1))) := by
  simp only [List.flatten_cons, List.flatten_nil, List.append_nil, List.cons_append, List.nil_append]
  after_results_simp
  rfl

/-- The third result: the harmonic mean of the two fractions below the threshold, 0 where their sum is not positive. -/
theorem tail_v43 (W : Valuation τ sig (Elt Ideal)) :
    StableHlo.after (List.flatten (tailOps : List (List (HloOp τ sig (Elt Ideal))))) W (Proc.devRef .tc main_v43)
      = Cert.Chamfer.f1 (flat2 (W (Proc.devRef .tc main_v0_0))) (flat2 (W (Proc.devRef .tc main_v0_1))) := by
  simp only [List.flatten_cons, List.flatten_nil, List.append_nil, List.cons_append, List.nil_append]
  after_results_simp
  rfl

/-! ## The tail after the region -/

variable (m : (ℓ : Loc nD τ sig) → Buf (Elt Ideal) ℓ)

/-- The first distance array the region leaves (output window 2's array after the last grid point), as [4,8192]. -/
def D1 (dats : (p : Fin 1) → (c : Dev nD) → Dat τ (Elt Ideal) Unit ℕ (UR sig nD τ) ℕ (cfgs p) c) (c : Dev nD) :
    FVec Ideal S4x8192 .f32 := flat2 ((dats 0 c).arrAt 2 cfg0.N)
/-- The second distance array the region leaves (output window 3's array after the last grid point), as [4,8192]. -/
def D2 (dats : (p : Fin 1) → (c : Dev nD) → Dat τ (Elt Ideal) Unit ℕ (UR sig nD τ) ℕ (cfgs p) c) (c : Dev nD) :
    FVec Ideal S4x8192 .f32 := flat2 ((dats 0 c).arrAt 3 cfg0.N)

/-- The region's exit contents read at output array 2. -/
theorem exit_v0_0 (dats : (p : Fin 1) → (c : Dev nD) → Dat τ (Elt Ideal) Unit ℕ (UR sig nD τ) ℕ (cfgs p) c) (c : Dev nD) :
    flat2 (Pipeline.withArrays (cfgs 0).spec c (V0 m c) (fun w => (dats 0 c).arrAt w (cfgs 0).N) (Proc.devRef .tc main_v0_0)) = D1 dats c :=
  congrArg flat2 (Pipeline.withArrays_arr spec0 launch0.win.arr_inj c (V0 m c) (fun w => (dats 0 c).arrAt w (cfgs 0).N) 2)
/-- The region's exit contents read at output array 3. -/
theorem exit_v0_1 (dats : (p : Fin 1) → (c : Dev nD) → Dat τ (Elt Ideal) Unit ℕ (UR sig nD τ) ℕ (cfgs p) c) (c : Dev nD) :
    flat2 (Pipeline.withArrays (cfgs 0).spec c (V0 m c) (fun w => (dats 0 c).arrAt w (cfgs 0).N) (Proc.devRef .tc main_v0_1)) = D2 dats c :=
  congrArg flat2 (Pipeline.withArrays_arr spec0 launch0.win.arr_inj c (V0 m c) (fun w => (dats 0 c).arrAt w (cfgs 0).N) 3)

/-- @main's three results after the tail: the specification's statistics of the two arrays the region leaves. -/
theorem tail_results (dats : (p : Fin 1) → (c : Dev nD) → Dat τ (Elt Ideal) Unit ℕ (UR sig nD τ) ℕ (cfgs p) c) (c : Dev nD) :
    Pipeline.afterTail₀ cfgs dats 0 (V0 m) tailOps c main_v13 = Cert.Chamfer.cdP (D1 dats c) (D2 dats c)
    ∧ Pipeline.afterTail₀ cfgs dats 0 (V0 m) tailOps c main_v20 = Cert.Chamfer.cdT (D1 dats c) (D2 dats c)
    ∧ Pipeline.afterTail₀ cfgs dats 0 (V0 m) tailOps c main_v43 = Cert.Chamfer.f1 (D1 dats c) (D2 dats c) := by
  unfold Pipeline.afterTail₀
  refine ⟨(tail_v13 _).trans ?_, (tail_v20 _).trans ?_, (tail_v43 _).trans ?_⟩
  · rw [exit_v0_0 m dats c, exit_v0_1 m dats c]
  · rw [exit_v0_0 m dats c, exit_v0_1 m dats c]
  · rw [exit_v0_0 m dats c, exit_v0_1 m dats c]

end Cert.KernelIdeal.HandTail

end
-- ==== Proof.KI.BodyDefs.lean ====
/- What the two output staging buffers of the kernel hold after the body at each grid point, as a recursion on the
   point: each buffer is reset to +∞ at the first point of a batch and, at every point, one tile of it is replaced by
   the minimum of what it held and the point's new minima. Everything is generic in the float model. -/
import proofs.«167617_j65481071394839_2_alg».proof.Proof.KI.Host
import Idealize.ShloMosaic.Lib.WritesUnit
import Idealize.ShloMosaic.Lib.WholeRead
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## The body's branch condition and the coordinates in closed form -/

/-- The condition of the body's conditional, from the grid coordinates (the skeleton's scalar chain substituted). -/
abbrev cond0_0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- It holds at the first point of each batch only: decided over the grid. -/
theorem hcond0_0 : ∀ t : Fin cfg0.N, cond0_0 (grid0.coords t) ↔ t.val % 32 = 0 :=
  (by decide +kernel : ∀ t : Fin grid0.N, cond0_0 (grid0.coords t) ↔ t.val % 32 = 0)

/-- The grid is walked lexicographically: the three coordinates of point t. -/
theorem coords0_eq : ∀ t : Fin cfg0.N, ((grid0.coords t) 0).val = t.val / 32 :=
  (by decide +kernel : ∀ t : Fin grid0.N, ((grid0.coords t) 0).val = t.val / 32)
theorem coords1_eq : ∀ t : Fin cfg0.N, ((grid0.coords t) 1).val = (t.val / 8) % 4 :=
  (by decide +kernel : ∀ t : Fin grid0.N, ((grid0.coords t) 1).val = (t.val / 8) % 4)
theorem coords2_eq : ∀ t : Fin cfg0.N, ((grid0.coords t) 2).val = t.val % 8 :=
  (by decide +kernel : ∀ t : Fin grid0.N, ((grid0.coords t) 2).val = t.val % 8)

/-! ## One point's update of an output buffer -/

/-- The value the buffers are reset to at the first point of a batch: +∞ everywhere. -/
def infV : Vec F S1x1x8192 .f32 := fun _ => FloatOps.ofBits .f32 0x7F800000#32

/-- The first output buffer after one point: on the tile of 2048 entries the point's second coordinate selects, the
    minimum of what the buffer held (first operand) and the new row minima v34; elsewhere what it held. -/
def upd1 (base : Vec F S1x1x8192 .f32) (i : grid0.Coords) (v34 : FVec F S1x2048 .f32) : Vec F S1x1x8192 .f32 :=
  fun y => if (y 2).val / 2048 = (i 1).val
    then FloatOps.minimumf (base y) (v34 (ix2 0 ⟨(y 2).val % 2048, Nat.mod_lt _ (by norm_num)⟩))
    else base y

/-- The second output buffer after one point: on the tile of 1024 entries the point's third coordinate selects, the
    minimum of what the buffer held and the new column minima v33; elsewhere what it held. -/
def upd2 (base : Vec F S1x1x8192 .f32) (i : grid0.Coords) (v33 : FVec F S1x1024 .f32) : Vec F S1x1x8192 .f32 :=
  fun y => if (y 2).val / 1024 = (i 2).val
    then FloatOps.minimumf (base y) (v33 (ix2 0 ⟨(y 2).val % 1024, Nat.mod_lt _ (by norm_num)⟩))
    else base y

/-! ## What the outputs hold after each point -/

/-- The two input blocks at a point, at the shapes the body loads them with. -/
abbrev blk0 (c : Dev nD) (t : Fin cfg0.N) : Vec F S1x2048x3 .f32 := iblk m c 0 t
abbrev blk1 (c : Dev nD) (t : Fin cfg0.N) : Vec F S1x1024x3 .f32 := iblk m c 1 t

/-- What the two output staging buffers hold after the body at position n: at the first point of a batch the update
    of the reset buffer, at any other point the update of what the point before left (the buffer is not written back
    in between). -/
def outsAt0 (c : Dev nD) : (n : ℕ) → n < cfg0.N → Vec F S1x1x8192 .f32 × Vec F S1x1x8192 .f32
  | 0, hn =>
    (upd1 infV (grid0.coords ⟨0, hn⟩) (k0_pay7 (blk0 m c ⟨0, hn⟩) (blk1 m c ⟨0, hn⟩)),
     upd2 infV (grid0.coords ⟨0, hn⟩) (k0_pay6 (blk0 m c ⟨0, hn⟩) (blk1 m c ⟨0, hn⟩)))
  | n + 1, hn =>
    if h0 : (n + 1) % 32 = 0 then
      (upd1 infV (grid0.coords ⟨n + 1, hn⟩) (k0_pay7 (blk0 m c ⟨n + 1, hn⟩) (blk1 m c ⟨n + 1, hn⟩)),
       upd2 infV (grid0.coords ⟨n + 1, hn⟩) (k0_pay6 (blk0 m c ⟨n + 1, hn⟩) (blk1 m c ⟨n + 1, hn⟩)))
    else
      (upd1 (outsAt0 c n (Nat.lt_of_succ_lt hn)).1 (grid0.coords ⟨n + 1, hn⟩) (k0_pay7 (blk0 m c ⟨n + 1, hn⟩) (blk1 m c ⟨n + 1, hn⟩)),
       upd2 (outsAt0 c n (Nat.lt_of_succ_lt hn)).2 (grid0.coords ⟨n + 1, hn⟩) (k0_pay6 (blk0 m c ⟨n + 1, hn⟩) (blk1 m c ⟨n + 1, hn⟩)))

/-- outsAt0 at the first point of a batch. -/
theorem outsAt0_A (c : Dev nD) (t : Fin cfg0.N) (h0 : t.val % 32 = 0) :
    outsAt0 m c t.val t.isLt =
      (upd1 infV (grid0.coords t) (k0_pay7 (blk0 m c t) (blk1 m c t)), upd2 infV (grid0.coords t) (k0_pay6 (blk0 m c t) (blk1 m c t))) := by
  obtain ⟨n, hn⟩ := t
  cases n with
  | zero => exact rfl
  | succ n => exact (dif_pos h0).trans rfl

/-- outsAt0 at any other point: the update of what the point before left. -/
theorem outsAt0_B (c : Dev nD) (t : Fin cfg0.N) (h0 : ¬t.val % 32 = 0) :
    outsAt0 m c t.val t.isLt =
      (upd1 (outsAt0 m c (t.val - 1) (Nat.lt_of_le_of_lt (Nat.sub_le _ _) t.isLt)).1 (grid0.coords t) (k0_pay7 (blk0 m c t) (blk1 m c t)),
       upd2 (outsAt0 m c (t.val - 1) (Nat.lt_of_le_of_lt (Nat.sub_le _ _) t.isLt)).2 (grid0.coords t) (k0_pay6 (blk0 m c t) (blk1 m c t))) := by
  obtain ⟨n, hn⟩ := t
  cases n with
  | zero => exact (by exfalso; (try dsimp only at h0); exact absurd (Nat.zero_mod _) h0)
  | succ n => exact (dif_neg h0).trans rfl

end Cert.KernelIdeal.Hand

end
-- ==== Proof.KI.Body.lean ====
/- The kernel body's symbolic run and the proof data of the one pipeline: on whole staging memrefs the body, in each of
   its two control cases, leaves each output buffer at the one-point update of what it held (case B) or of the reset
   buffer (case A); from that the body obligation at every grid point, the run of @main and the frame. Everything is
   generic in the float model. -/
import proofs.«167617_j65481071394839_2_alg».proof.Proof.KI.BodyDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## Reading the pieces -/

/-- One store of a tile of 2048 along the last axis at offset 2048 * n, read at an index of the buffer: inside the tile the
    payload at the index's position within the tile, outside it what the rest of the list left. -/
theorem read_tile2048 {κ : Kind} {sp : Space} (v : View sig κ sp S1x1x8192 .f32) (g : v.ty.Contents (Elt F))
    {off : Fin 3 → ℕ} (inb : ∀ a, off a + (![1, 1, 2048] : Fin 3 → ℕ) a ≤ S1x1x8192.size a)
    (w : (Rect.unit (s := S1x1x8192) off ![1, 1, 2048] inb).shape.Idx → Elt F .f32) (L : List (View.Piece (Elt F) S1x1x8192 .f32))
    (n : ℕ) (heq : off = ![0, 0, 2048 * n]) (j : Fin 8192) :
    v.read (Elt F) (v.writes (Elt F) g ((⟨Rect.unit off ![1, 1, 2048] inb, w⟩ : View.Piece (Elt F) S1x1x8192 .f32) :: L)) (ix3 0 0 j)
      = if j.val / 2048 = n then w (ix3 (0 : Fin 1) (0 : Fin 1) (⟨j.val % 2048, Nat.mod_lt _ (by norm_num)⟩ : Fin 2048))
        else v.read (Elt F) (v.writes (Elt F) g L) (ix3 0 0 j) := by
  by_cases h : j.val / 2048 = n
  · rw [if_pos h]
    exact View.read_writes_cons_unit_of_mem v g inb w L _ _ heq (fun a => by
      match a with
      | ⟨0, _⟩ => rfl
      | ⟨1, _⟩ => rfl
      | ⟨2, _⟩ => show j.val = 2048 * n + j.val % 2048; omega)
  · rw [if_neg h]
    exact View.read_writes_cons_unit_of_not_mem v g inb w L _ heq 2 (by
      show j.val < 2048 * n ∨ 2048 * n + 2048 ≤ j.val; omega)

/-- One store of a tile of 1024 along the last axis at offset 1024 * n, read at an index of the buffer: inside the tile the
    payload at the index's position within the tile, outside it what the rest of the list left. -/
theorem read_tile1024 {κ : Kind} {sp : Space} (v : View sig κ sp S1x1x8192 .f32) (g : v.ty.Contents (Elt F))
    {off : Fin 3 → ℕ} (inb : ∀ a, off a + (![1, 1, 1024] : Fin 3 → ℕ) a ≤ S1x1x8192.size a)
    (w : (Rect.unit (s := S1x1x8192) off ![1, 1, 1024] inb).shape.Idx → Elt F .f32) (L : List (View.Piece (Elt F) S1x1x8192 .f32))
    (n : ℕ) (heq : off = ![0, 0, 1024 * n]) (j : Fin 8192) :
    v.read (Elt F) (v.writes (Elt F) g ((⟨Rect.unit off ![1, 1, 1024] inb, w⟩ : View.Piece (Elt F) S1x1x8192 .f32) :: L)) (ix3 0 0 j)
      = if j.val / 1024 = n then w (ix3 (0 : Fin 1) (0 : Fin 1) (⟨j.val % 1024, Nat.mod_lt _ (by norm_num)⟩ : Fin 1024))
        else v.read (Elt F) (v.writes (Elt F) g L) (ix3 0 0 j) := by
  by_cases h : j.val / 1024 = n
  · rw [if_pos h]
    exact View.read_writes_cons_unit_of_mem v g inb w L _ _ heq (fun a => by
      match a with
      | ⟨0, _⟩ => rfl
      | ⟨1, _⟩ => rfl
      | ⟨2, _⟩ => show j.val = 1024 * n + j.val % 1024; omega)
  · rw [if_neg h]
    exact View.read_writes_cons_unit_of_not_mem v g inb w L _ heq 2 (by
      show j.val < 1024 * n ∨ 1024 * n + 1024 ≤ j.val; omega)

/-- A store through the whole buffer's rectangle reads back its payload. -/
theorem read_whole_store {κ : Kind} {sp : Space} (v : View sig κ sp S1x1x8192 .f32) (g : v.ty.Contents (Elt F))
    (inb : ∀ a, (![0, 0, 0] : Fin 3 → ℕ) a + S1x1x8192.size a ≤ S1x1x8192.size a)
    (w : (Rect.unit (s := S1x1x8192) ![0, 0, 0] S1x1x8192.size inb).shape.Idx → Elt F .f32) (L : List (View.Piece (Elt F) S1x1x8192 .f32))
    (y : S1x1x8192.Idx) :
    v.read (Elt F) (v.writes (Elt F) g ((⟨Rect.unit ![0, 0, 0] S1x1x8192.size inb, w⟩ : View.Piece (Elt F) S1x1x8192 .f32) :: L)) y = w y :=
  View.read_writes_cons_unit_of_mem v g inb w L y y rfl (fun a => by
    match a with
    | ⟨0, _⟩ => exact (Nat.zero_add _).symm
    | ⟨1, _⟩ => exact (Nat.zero_add _).symm
    | ⟨2, _⟩ => exact (Nat.zero_add _).symm)

/-- A load of a whole memref's whole rectangle, the memref held at the contents that read X, reads X. -/
theorem readAt_whole_unread {s : Shape} {M : Memref sig .tc .vmem s .f32} (h : M.IsWhole) (X : s.Idx → Elt F .f32)
    (off : Fin s.rank → ℕ) (hoff : ∀ a, off a = 0) (inb : ∀ a, off a + s.size a ≤ s.size a) :
    View.readAt (Elt F) M.view (Rect.unit (s := s) off s.size inb).toLoadRect (h.unread X) = X := by
  funext x
  rw [h.readAt_unread X]
  congr 1
  funext a
  exact Fin.ext (by show off a + 1 * (x a).val = (x a).val; rw [hoff a]; omega)

/-- The first payload at an index: the minimum of what the buffer held there and the new row minimum. -/
theorem k0_pay1_apply (v34 : FVec F S1x2048 .f32) (v40 : Vec F S1x1x2048 .f32) (k : Fin 2048) :
    k0_pay1 v34 v40 (ix3 0 0 k) = FloatOps.minimumf (v40 (ix3 0 0 k)) (v34 (ix2 0 k)) := by
  unfold k0_pay1
  rw [shapeCast_ab_1ab_apply]
  show FloatOps.minimumf (shapeCast S1x2048 v40 shapeCasts_S1x1x2048_S1x2048 (ix2 0 k)) (v34 (ix2 0 k)) = _
  rw [shapeCast_1ab_ab_apply]

/-- The second payload at an index. -/
theorem k0_pay2_apply (v33 : FVec F S1x1024 .f32) (v48 : Vec F S1x1x1024 .f32) (k : Fin 1024) :
    k0_pay2 v33 v48 (ix3 0 0 k) = FloatOps.minimumf (v48 (ix3 0 0 k)) (v33 (ix2 0 k)) := by
  unfold k0_pay2
  rw [shapeCast_ab_1ab_apply]
  show FloatOps.minimumf (shapeCast S1x1024 v48 shapeCasts_S1x1x1024_S1x1024 (ix2 0 k)) (v33 (ix2 0 k)) = _
  rw [shapeCast_1ab_ab_apply]

/-- The index a load of the tile of 2048 reads at position j % 2048, for j in the tile: j itself. -/
theorem slice1_idx (i : grid0.Coords) (inb : ∀ a, (k0_off1 i) a + S1x1x2048.size a ≤ S1x1x8192.size a) (j : Fin 8192) (h : j.val / 2048 = (i 1).val) :
    (Rect.unit (s := S1x1x8192) (k0_off1 i) S1x1x2048.size inb).toLoadRect.idx
        (ix3 (0 : Fin 1) (0 : Fin 1) (⟨j.val % 2048, Nat.mod_lt _ (by norm_num)⟩ : Fin 2048)) = ix3 0 0 j := by
  funext a
  apply Fin.ext
  rw [LoadRect.idx_apply]
  have e := congrFun (k0_off1_eq i) a
  simp only [Rect.off_unit, Rect.stride_unit]
  rw [e]
  match a with
  | ⟨0, _⟩ => rfl
  | ⟨1, _⟩ => rfl
  | ⟨2, _⟩ => show 2048 * (i 1).val + 1 * (j.val % 2048) = j.val; omega

/-- One tile store of the point's payload over a list, read back whole: the one-point update of what the list left,
    given that the payload's old-value operand is what the list left on the tile. -/
theorem read_upd1 {κ : Kind} {sp : Space} (v : View sig κ sp S1x1x8192 .f32) (g : v.ty.Contents (Elt F))
    (L : List (View.Piece (Elt F) S1x1x8192 .f32)) (base : Vec F S1x1x8192 .f32)
    (hbase : v.read (Elt F) (v.writes (Elt F) g L) = base)
    (i : grid0.Coords) (inb : ∀ a, (k0_off1 i) a + (![1, 1, 2048] : Fin 3 → ℕ) a ≤ S1x1x8192.size a)
    (vnew : FVec F S1x2048 .f32) (vold : Vec F S1x1x2048 .f32)
    (hvold : ∀ j : Fin 8192, j.val / 2048 = (i 1).val →
      vold (ix3 0 0 ⟨j.val % 2048, Nat.mod_lt _ (by norm_num)⟩) = base (ix3 0 0 j)) :
    v.read (Elt F) (v.writes (Elt F) g
        ((⟨Rect.unit (s := S1x1x8192) (k0_off1 i) ![1, 1, 2048] inb, k0_pay1 vnew vold⟩ : View.Piece (Elt F) S1x1x8192 .f32) :: L))
      = upd1 base i vnew := by
  funext y
  have h0 : y 0 = (0 : Fin 1) := Subsingleton.elim (α := Fin 1) _ _
  have h1 : y 1 = (0 : Fin 1) := Subsingleton.elim (α := Fin 1) _ _
  obtain ⟨j, rfl⟩ : ∃ j : Fin 8192, y = ix3 0 0 j :=
    ⟨y 2, funext fun a => by match a with | ⟨0, _⟩ => exact h0 | ⟨1, _⟩ => exact h1 | ⟨2, _⟩ => rfl⟩
  refine (read_tile2048 v g inb _ L (i 1).val (k0_off1_eq i) j).trans ?_
  unfold upd1
  show _ = if j.val / 2048 = (i 1).val then _ else _
  by_cases h : j.val / 2048 = (i 1).val
  · rw [if_pos h, if_pos h, k0_pay1_apply, hvold j h]
  · rw [if_neg h, if_neg h, hbase]

/-- The index a load of the tile of 1024 reads at position j % 1024, for j in the tile: j itself. -/
theorem slice2_idx (i : grid0.Coords) (inb : ∀ a, (k0_off2 i) a + S1x1x1024.size a ≤ S1x1x8192.size a) (j : Fin 8192) (h : j.val / 1024 = (i 2).val) :
    (Rect.unit (s := S1x1x8192) (k0_off2 i) S1x1x1024.size inb).toLoadRect.idx
        (ix3 (0 : Fin 1) (0 : Fin 1) (⟨j.val % 1024, Nat.mod_lt _ (by norm_num)⟩ : Fin 1024)) = ix3 0 0 j := by
  funext a
  apply Fin.ext
  rw [LoadRect.idx_apply]
  have e := congrFun (k0_off2_eq i) a
  simp only [Rect.off_unit, Rect.stride_unit]
  rw [e]
  match a with
  | ⟨0, _⟩ => rfl
  | ⟨1, _⟩ => rfl
  | ⟨2, _⟩ => show 1024 * (i 2).val + 1 * (j.val % 1024) = j.val; omega

/-- One tile store of the point's payload over a list, read back whole: the one-point update of what the list left,
    given that the payload's old-value operand is what the list left on the tile. -/
theorem read_upd2 {κ : Kind} {sp : Space} (v : View sig κ sp S1x1x8192 .f32) (g : v.ty.Contents (Elt F))
    (L : List (View.Piece (Elt F) S1x1x8192 .f32)) (base : Vec F S1x1x8192 .f32)
    (hbase : v.read (Elt F) (v.writes (Elt F) g L) = base)
    (i : grid0.Coords) (inb : ∀ a, (k0_off2 i) a + (![1, 1, 1024] : Fin 3 → ℕ) a ≤ S1x1x8192.size a)
    (vnew : FVec F S1x1024 .f32) (vold : Vec F S1x1x1024 .f32)
    (hvold : ∀ j : Fin 8192, j.val / 1024 = (i 2).val →
      vold (ix3 0 0 ⟨j.val % 1024, Nat.mod_lt _ (by norm_num)⟩) = base (ix3 0 0 j)) :
    v.read (Elt F) (v.writes (Elt F) g
        ((⟨Rect.unit (s := S1x1x8192) (k0_off2 i) ![1, 1, 1024] inb, k0_pay2 vnew vold⟩ : View.Piece (Elt F) S1x1x8192 .f32) :: L))
      = upd2 base i vnew := by
  funext y
  have h0 : y 0 = (0 : Fin 1) := Subsingleton.elim (α := Fin 1) _ _
  have h1 : y 1 = (0 : Fin 1) := Subsingleton.elim (α := Fin 1) _ _
  obtain ⟨j, rfl⟩ : ∃ j : Fin 8192, y = ix3 0 0 j :=
    ⟨y 2, funext fun a => by match a with | ⟨0, _⟩ => exact h0 | ⟨1, _⟩ => exact h1 | ⟨2, _⟩ => rfl⟩
  refine (read_tile1024 v g inb _ L (i 2).val (k0_off2_eq i) j).trans ?_
  unfold upd2
  show _ = if j.val / 1024 = (i 2).val then _ else _
  by_cases h : j.val / 1024 = (i 2).val
  · rw [if_pos h, if_pos h, k0_pay2_apply, hvold j h]
  · rw [if_neg h, if_neg h, hbase]

/-! ## The kernel body on any staging memrefs, case by case -/

set_option maxHeartbeats 1000000 in
/-- Case A (the conditional taken: the first point of a batch). On whole staging memrefs, the inputs' at their contents
    and the outputs' at anything, the body runs to the continuation holding the inputs' as they were and each output's
    at the one-point update of the reset buffer: the first store covers the buffer with +∞, the tile's load then reads
    +∞ off it, and the tile's store leaves the minimum. -/
theorem kernelRun0_A (c : Dev nD) (i : grid0.Coords)
    (arg3 : Memref sig .tc .vmem S1x2048x3 .f32) (harg3 : arg3.IsWhole) (arg4 : Memref sig .tc .vmem S1x1024x3 .f32) (harg4 : arg4.IsWhole)
    (arg5 : Memref sig .tc .vmem S1x1x8192 .f32) (harg5 : arg5.IsWhole) (arg6 : Memref sig .tc .vmem S1x1x8192 .f32) (harg6 : arg6.IsWhole)
    (hc0 : cond0_0 i) (x3 : Vec F S1x2048x3 .f32) (x4 : Vec F S1x1024x3 .f32) (E : Set ℕ) (K : PUnit → sProp 𝕄) :
    iprop(owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg3 fullShare x3 ∗ owns (c : Thread nD τ) arg4 fullShare x4
            ∗ owns (c : Thread nD τ) arg5 fullShare (upd1 infV i (k0_pay7 x3 x4))
            ∗ owns (c : Thread nD τ) arg6 fullShare (upd2 infV i (k0_pay6 x3 x4))) -∗ K ⟨⟩))
      ⊢ wp frame (wpE (defs₀ (F := F)) Variants.none c none) E (cc0__min_dist_kernel i arg3 harg3 arg4 harg4 arg5 harg5 arg6 harg6) K := by
  simp only [cc0__min_dist_kernel_eq_skeleton]; unfold cc0__min_dist_kernel_skel
  simp only [k0_part1_eq_skeleton]; unfold k0_part1_skel
  unfold owns
  iintro ⟨⟨%f3, %hf3, H3⟩, ⟨%f4, %hf4, H4⟩, ⟨%d5, %f5, -, H5⟩, ⟨%d6, %f6, -, H6⟩, Hk⟩
  obtain rfl := harg3.eq_unread hf3; obtain rfl := harg4.eq_unread hf4
  sl_exec (disch := first | exact hc0)
  sl_step
  have e3 := readAt_whole_unread harg3 x3 ![0, 0, 0] (fun a => by match a with | ⟨0, _⟩ => rfl | ⟨1, _⟩ => rfl | ⟨2, _⟩ => rfl) inb_S1x2048x3_S1x2048x3_0_0_0
  have e4 := readAt_whole_unread harg4 x4 ![0, 0, 0] (fun a => by match a with | ⟨0, _⟩ => rfl | ⟨1, _⟩ => rfl | ⟨2, _⟩ => rfl) inb_S1x1024x3_S1x1024x3_0_0_0
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    refine (read_upd1 arg5.view arg5.view.junk _ infV ?hb i _ _ _ (fun j h => ?_)).trans (by rw [e3, e4])
    case hb => funext y; exact read_whole_store arg5.view _ _ _ [] y
    exact read_whole_store arg5.view _ _ _ [] _
  iexists _; isplitr; swap; · iexact H6
  ipureintro
  refine (read_upd2 arg6.view arg6.view.junk _ infV ?hb i _ _ _ (fun j h => ?_)).trans (by rw [e3, e4])
  case hb => funext y; exact read_whole_store arg6.view _ _ _ [] y
  exact read_whole_store arg6.view _ _ _ [] _

set_option maxHeartbeats 1000000 in
/-- Case B (the conditional not taken). On whole staging memrefs, the inputs' and the outputs' at their contents, the
    body runs to the continuation holding the inputs' as they were and each output's at the one-point update of what
    it held: the tile's load reads the old values, the tile's store leaves the minimum, the rest is untouched. -/
theorem kernelRun0_B (c : Dev nD) (i : grid0.Coords)
    (arg3 : Memref sig .tc .vmem S1x2048x3 .f32) (harg3 : arg3.IsWhole) (arg4 : Memref sig .tc .vmem S1x1024x3 .f32) (harg4 : arg4.IsWhole)
    (arg5 : Memref sig .tc .vmem S1x1x8192 .f32) (harg5 : arg5.IsWhole) (arg6 : Memref sig .tc .vmem S1x1x8192 .f32) (harg6 : arg6.IsWhole)
    (hc0 : ¬cond0_0 i) (x3 : Vec F S1x2048x3 .f32) (x4 : Vec F S1x1024x3 .f32) (xo5 : Vec F S1x1x8192 .f32) (xo6 : Vec F S1x1x8192 .f32)
    (E : Set ℕ) (K : PUnit → sProp 𝕄) :
    iprop(owns (c : Thread nD τ) arg3 fullShare x3 ∗ owns (c : Thread nD τ) arg4 fullShare x4
        ∗ owns (c : Thread nD τ) arg5 fullShare xo5 ∗ owns (c : Thread nD τ) arg6 fullShare xo6
        ∗ (iprop(owns (c : Thread nD τ) arg3 fullShare x3 ∗ owns (c : Thread nD τ) arg4 fullShare x4
            ∗ owns (c : Thread nD τ) arg5 fullShare (upd1 xo5 i (k0_pay7 x3 x4))
            ∗ owns (c : Thread nD τ) arg6 fullShare (upd2 xo6 i (k0_pay6 x3 x4))) -∗ K ⟨⟩))
      ⊢ wp frame (wpE (defs₀ (F := F)) Variants.none c none) E (cc0__min_dist_kernel i arg3 harg3 arg4 harg4 arg5 harg5 arg6 harg6) K := by
  simp only [cc0__min_dist_kernel_eq_skeleton]; unfold cc0__min_dist_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4
  obtain rfl := harg5.eq_unread hf5; obtain rfl := harg6.eq_unread hf6
  sl_exec (disch := first | exact hc0)
  sl_step
  have e3 := readAt_whole_unread harg3 x3 ![0, 0, 0] (fun a => by match a with | ⟨0, _⟩ => rfl | ⟨1, _⟩ => rfl | ⟨2, _⟩ => rfl) inb_S1x2048x3_S1x2048x3_0_0_0
  have e4 := readAt_whole_unread harg4 x4 ![0, 0, 0] (fun a => by match a with | ⟨0, _⟩ => rfl | ⟨1, _⟩ => rfl | ⟨2, _⟩ => rfl) inb_S1x1024x3_S1x1024x3_0_0_0
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    refine (read_upd1 arg5.view (harg5.unread xo5) [] xo5 (harg5.read_unread xo5) i _ _ _ (fun j h => ?_)).trans (by rw [e3, e4])
    exact (harg5.readAt_unread xo5 _ _).trans (congrArg xo5 (slice1_idx i _ j h))
  iexists _; isplitr; swap; · iexact H6
  ipureintro
  refine (read_upd2 arg6.view (harg6.unread xo6) [] xo6 (harg6.read_unread xo6) i _ _ _ (fun j h => ?_)).trans (by rw [e3, e4])
  exact (harg6.readAt_unread xo6 _ _).trans (congrArg xo6 (slice2_idx i _ j h))

/-! ## The pipeline's proof data -/

/-- The proof data of the one pipeline on core c: the arrays as the region finds them; after the body at point t each
    input's buffer at its block and the two outputs' at outsAt0; the class's invariant (the scoped rest and the
    generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point that is not the first of its batch the first output's current staging buffer holds what the body left
    at the point before: the point is not the first, the buffer was not written back in between (write-backs happen
    at the last point of a batch only), the window is live and uncut. -/
theorem before0_2_B (c : Dev nD) (t : Fin cfg0.N) (h0 : ¬t.val % 32 = 0) (d) :
    (dats m 0 c).before 2 t d = (outsAt0 m c (t.val - 1) (Nat.lt_of_le_of_lt (Nat.sub_le _ _) t.isLt)).1 := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]
/-- The same for the second output. -/
theorem before0_3_B (c : Dev nD) (t : Fin cfg0.N) (h0 : ¬t.val % 32 = 0) (d) :
    (dats m 0 c).before 3 t d = (outsAt0 m c (t.val - 1) (Nat.lt_of_le_of_lt (Nat.sub_le _ _) t.isLt)).2 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point t (the library's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 800000 in
/-- The body at any point: the inputs' memrefs hold their blocks; the closed form says which case the point is in; at a
    point that is not the first of its batch the outputs' memrefs hold what the point before left; so that case's run
    applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  by_cases h0 : t.val % 32 = 0
  · rw [outsAt0_A m c t h0]
    iintro ⟨HΦ, Ho, ⟨%d0, H0⟩, ⟨%d1, H1⟩, ⟨%d2, H2⟩, ⟨%d3, H3⟩⟩
    iapply (kernelRun0_A c (grid0.coords t) _ _ _ _ _ _ _ _ ((hcond0_0 t).mpr h0) (iblk m c 0 t) (iblk m c 1 t) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outsAt0_B m c t h0]
    simp only [before0_2_B m c t h0, before0_3_B m c t h0]
    iintro ⟨HΦ, Ho, ⟨%d0, H0⟩, ⟨%d1, H1⟩, ⟨%d2, H2⟩, ⟨%d3, H3⟩⟩
    iapply (kernelRun0_B c (grid0.coords t) _ _ _ _ _ _ _ _ (fun h => h0 ((hcond0_0 t).mp h)) (iblk m c 0 t) (iblk m c 1 t) _ _ Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- info: 'Cert.KernelIdeal.Hand.run_main' depends on axioms: [propext, Classical.choice, Quot.sound] -/
#guard_msgs in #print axioms run_main

/-- The frame: @main leaves its two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KI.Payload.lean ====
/-
  The tile payloads read at an index, at the extended reals.

  For a block `x1 : [1, 2048, 3]` of the first cloud and a block `x2 : [1, 1024, 3]` of the second, the tile of squared
  distances is `dtile x1 x2 r c = Σ_k (x1[0,r,k] − x2[0,c,k])²` (three terms, summed left to right). The program builds it
  from shape casts, a transpose, column and row slices broadcast to [2048, 1024] and pointwise arithmetic; its row minima
  and column minima are minimum reductions over one axis from +∞, reshaped to one-row matrices. This file reads each of the
  three at an index: the tile entry is `dtile`, and each minimum is the `Finset.inf` of `dtile` over the reduced coordinate.
-/
import proofs.«167617_j65481071394839_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.HandValue

open Idealize.ShloMosaic Idealize.ShloMosaic.ValueIdx Cert.KernelIdeal Cert.KernelIdeal.Gen

/-- The squared distance between row `r` of the first block and row `c` of the second. -/
def dtile (x1 : Vec Ideal S1x2048x3 .f32) (x2 : Vec Ideal S1x1024x3 .f32) (r : Fin 2048) (c : Fin 1024) : EReal :=
  ((x1 (ix3 0 r 0) - x2 (ix3 0 c 0)) * (x1 (ix3 0 r 0) - x2 (ix3 0 c 0))
    + (x1 (ix3 0 r 1) - x2 (ix3 0 c 1)) * (x1 (ix3 0 r 1) - x2 (ix3 0 c 1)))
    + (x1 (ix3 0 r 2) - x2 (ix3 0 c 2)) * (x1 (ix3 0 r 2) - x2 (ix3 0 c 2))

/-! ## Layout operations at an index -/

section Layout
variable {α : Type}

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-- Column `k` of the first block, copied along the tile's columns. -/
theorem col_bcast (x1 : Vec Ideal S1x2048x3 .f32) (k : Fin 3) (o : ℕ) (hk : k.val = o)
    (hc : S1x2048x3.ShapeCasts S2048x3) (hs : S2048x3.Slices ![0, o] S2048x1) (hb : S2048x1.Broadcasts S2048x1024)
    (r : Fin 2048) (c : Fin 1024) :
    broadcastTo S2048x1024 (extractStridedSlice S2048x1 ![0, o] (shapeCast S2048x3 x1 hc) hs) hb (ix2 r c)
      = x1 (ix3 0 r k) :=
  (broadcastTo_a1_ab_apply _ hb r c).trans
    ((slice2_axis1_apply o _ hs r (0 : Fin 1) k (by show k.val = o + 0; omega)).trans
      (shapeCast_1ab_ab_apply x1 hc r k))

/-- Column `k` of the second block, laid out as a row and copied along the tile's rows. -/
theorem row_bcast (x2 : Vec Ideal S1x1024x3 .f32) (k : Fin 3) (o : ℕ) (hk : k.val = o)
    (hc : S1x1024x3.ShapeCasts S1024x3) (ht : S1024x3.Transposes [1, 0] S3x1024)
    (hs : S3x1024.Slices ![o, 0] S1x1024) (hb : S1x1024.Broadcasts S2048x1024) (r : Fin 2048) (c : Fin 1024) :
    broadcastTo S2048x1024
        (extractStridedSlice S1x1024 ![o, 0] (transpose S3x1024 [1, 0] (shapeCast S1024x3 x2 hc) ht) hs) hb (ix2 r c)
      = x2 (ix3 0 c k) :=
  (broadcastTo_1b_ab_apply _ hb r c).trans
    ((slice2_axis0_apply o _ hs (0 : Fin 1) c k (by show k.val = o + 0; omega)).trans
      ((transpose_ix2_apply _ ht k c).trans (shapeCast_1ab_ab_apply x2 hc c k)))

/-- The tile of squared distances at `(r, c)`. -/
theorem pay5_apply (x1 : Vec Ideal S1x2048x3 .f32) (x2 : Vec Ideal S1x1024x3 .f32) (r : Fin 2048) (c : Fin 1024) :
    k0_pay5 (F := Ideal) x1 x2 (ix2 r c) = dtile x1 x2 r c := by
  unfold k0_pay5 dtile
  simp only [addf_apply, mulf_apply, subf_apply]
  rw [col_bcast x1 0 0 rfl, col_bcast x1 1 1 rfl, col_bcast x1 2 2 rfl,
    row_bcast x2 0 0 rfl, row_bcast x2 1 1 rfl, row_bcast x2 2 2 rfl]

/-! ## Minimum reductions -/

/-- A float minimum reduction over one axis, at the extended reals: the fold of `min` from the accumulator's value over
    that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The reduction's start value, the f32 pattern of +∞, is the top element. -/
theorem ofBits_inf : FloatOps.ofBits (F := Ideal) .f32 0x7F800000#32 = (⊤ : EReal) := by
  simp [Ideal.ofBits, Ideal.ieee]

/-- A fold of `min` from the top element is the infimum. -/
theorem fold_min_top {ι : Type} (s : Finset ι) (f : ι → EReal) : s.fold min ⊤ f = s.inf f := by
  classical
  induction s using Finset.induction_on with
  | empty => rw [Finset.fold_empty, Finset.inf_empty]
  | insert a s ha ih => rw [Finset.fold_insert ha, Finset.inf_insert, ih]

/-- The row minima of the tile, as a one-row matrix, at `(0, r)`. -/
theorem pay7_apply (x1 : Vec Ideal S1x2048x3 .f32) (x2 : Vec Ideal S1x1024x3 .f32) (r : Fin 2048) :
    k0_pay7 (F := Ideal) x1 x2 (ix2 0 r) = Finset.univ.inf fun c : Fin 1024 => dtile x1 x2 r c := by
  unfold k0_pay7
  refine (transpose_ix2_apply _ _ (0 : Fin 1) r).trans ?_
  refine (shapeCast_a_a1_apply _ _ r (0 : Fin 1)).trans ?_
  refine (multiReduction_minimumf_single _ _ _ _ _ (ix1 r)).trans ?_
  rw [ofBits_inf]
  refine (fold_min_top _ _).trans ?_
  refine Finset.inf_congr rfl fun c _ => ?_
  refine Eq.trans (congrArg (k0_pay5 x1 x2) ?_) (pay5_apply x1 x2 r c)
  funext ax
  apply Fin.ext
  match ax with
  | ⟨0, _⟩ => rfl
  | ⟨1, _⟩ => rfl

/-- The column minima of the tile, as a one-row matrix, at `(0, c)`. -/
theorem pay6_apply (x1 : Vec Ideal S1x2048x3 .f32) (x2 : Vec Ideal S1x1024x3 .f32) (c : Fin 1024) :
    k0_pay6 (F := Ideal) x1 x2 (ix2 0 c) = Finset.univ.inf fun r : Fin 2048 => dtile x1 x2 r c := by
  unfold k0_pay6
  refine (shapeCast_a_1a_apply _ _ (0 : Fin 1) c).trans ?_
  refine (multiReduction_minimumf_single _ _ _ _ _ (ix1 c)).trans ?_
  rw [ofBits_inf]
  refine (fold_min_top _ _).trans ?_
  refine Finset.inf_congr rfl fun r _ => ?_
  refine Eq.trans (congrArg (k0_pay5 x1 x2) ?_) (pay5_apply x1 x2 r c)
  funext ax
  apply Fin.ext
  match ax with
  | ⟨0, _⟩ => rfl
  | ⟨1, _⟩ => rfl

end Cert.KernelIdeal.HandValue
-- ==== Proof.Accum.lean ====
/-
  A running minimum over tiles is the minimum over everything.

  One batch of the grid is 32 steps `s = n * 8 + m` (`n < 4` row tiles of 2048 rows, `m < 8` column tiles of 1024
  columns). An accumulator starts at +∞ and at step `s` the entries of the active tile are replaced by the minimum of their
  old value and the minimum of one tile of a table `D`; the other entries keep their value. After the last step every
  entry holds the minimum of `D` over its whole row (respectively column).

  The argument: the accumulator never increases, every step only takes minima with values of `D` from the right row
  (column), and every value of that row (column) is met at exactly one step.
-/
import Mathlib.Data.EReal.Basic
import Mathlib.Data.Fintype.Basic
import Mathlib.Data.Finset.Lattice.Fold

namespace Cert.Chamfer.Accum

/-- A sequence that starts at +∞ and, at the active steps, takes the minimum with that step's tile value. -/
theorem run_le_tile (o tile : ℕ → EReal) (act : ℕ → Prop) [DecidablePred act] (N : ℕ)
    (hstep : ∀ s, s < N → o s =
      (if act s then min (if s = 0 then ⊤ else o (s - 1)) (tile s) else (if s = 0 then ⊤ else o (s - 1))))
    (t : ℕ) (hact : act t) : ∀ s, t ≤ s → s < N → o s ≤ tile t := by
  intro s hts
  induction s, hts using Nat.le_induction with
  | base =>
    intro htN
    rw [hstep t htN, if_pos hact]
    exact min_le_right _ _
  | succ s hts ih =>
    intro hsN
    have h1 : o (s + 1) ≤ o s := by
      rw [hstep (s + 1) hsN]
      by_cases ha : act (s + 1)
      · rw [if_pos ha]
        simp only [Nat.add_one_ne_zero, if_false, Nat.add_sub_cancel]
        exact min_le_left _ _
      · rw [if_neg ha]
        simp only [Nat.add_one_ne_zero, if_false, Nat.add_sub_cancel]
        exact le_refl _
    exact h1.trans (ih (Nat.lt_of_succ_lt hsN))

/-- Every value of such a sequence is bounded below by a common lower bound of the active tiles. -/
theorem le_run (o tile : ℕ → EReal) (act : ℕ → Prop) [DecidablePred act] (N : ℕ)
    (hstep : ∀ s, s < N → o s =
      (if act s then min (if s = 0 then ⊤ else o (s - 1)) (tile s) else (if s = 0 then ⊤ else o (s - 1))))
    (x : EReal) (hx : ∀ s, s < N → act s → x ≤ tile s) : ∀ s, s < N → x ≤ o s := by
  intro s
  induction s with
  | zero =>
    intro h0
    rw [hstep 0 h0]
    by_cases ha : act 0
    · rw [if_pos ha]
      simp only [if_true]
      exact le_min le_top (hx 0 h0 ha)
    · rw [if_neg ha]
      simp only [if_true]
      exact le_top
  | succ s ih =>
    intro hsN
    have hprev : x ≤ o s := ih (Nat.lt_of_succ_lt hsN)
    rw [hstep (s + 1) hsN]
    by_cases ha : act (s + 1)
    · rw [if_pos ha]
      simp only [Nat.add_one_ne_zero, if_false, Nat.add_sub_cancel]
      exact le_min hprev (hx (s + 1) hsN ha)
    · rw [if_neg ha]
      simp only [Nat.add_one_ne_zero, if_false, Nat.add_sub_cancel]
      exact hprev

/-- Row minima: entry `j` (row tile `j / 2048`) is active at the steps `s` with `s / 8 = j / 2048` and there meets the
column tile `s % 8`. -/
theorem acc_rows (D : Fin 8192 → Fin 8192 → EReal) (o : ℕ → Fin 8192 → EReal)
    (hstep : ∀ s, s < 32 → ∀ j : Fin 8192, o s j =
        (if j.val / 2048 = s / 8
         then min (if s = 0 then ⊤ else o (s - 1) j)
           (Finset.univ.inf fun c : Fin 1024 => D j ⟨(s % 8) * 1024 + c.val, by have := c.isLt; omega⟩)
         else (if s = 0 then ⊤ else o (s - 1) j))) :
    ∀ j : Fin 8192, o 31 j = Finset.univ.inf fun m' : Fin 8192 => D j m' := by
  intro j
  have hj := j.isLt
  have hs' : ∀ s, s < 32 → (fun s => o s j) s =
      (if (fun s => j.val / 2048 = s / 8) s
       then min (if s = 0 then ⊤ else (fun s => o s j) (s - 1))
         ((fun s => Finset.univ.inf fun c : Fin 1024 =>
            D j ⟨(s % 8) * 1024 + c.val, by have := c.isLt; omega⟩) s)
       else (if s = 0 then ⊤ else (fun s => o s j) (s - 1))) := fun s hs => hstep s hs j
  apply le_antisymm
  · refine Finset.le_inf fun m' _ => ?_
    have hm := m'.isLt
    have h1 := run_le_tile (fun s => o s j)
      (fun s => Finset.univ.inf fun c : Fin 1024 => D j ⟨(s % 8) * 1024 + c.val, by have := c.isLt; omega⟩)
      (fun s => j.val / 2048 = s / 8) 32 hs' ((j.val / 2048) * 8 + m'.val / 1024) (by beta_reduce; omega)
      31 (by omega) (by omega)
    refine h1.trans ?_
    refine (Finset.inf_le (Finset.mem_univ (⟨m'.val % 1024, Nat.mod_lt _ (by norm_num)⟩ : Fin 1024))).trans ?_
    refine le_of_eq (congrArg (D j) (Fin.ext ?_))
    simp only
    omega
  · refine le_run (fun s => o s j)
      (fun s => Finset.univ.inf fun c : Fin 1024 => D j ⟨(s % 8) * 1024 + c.val, by have := c.isLt; omega⟩)
      (fun s => j.val / 2048 = s / 8) 32 hs' _ (fun s _ _ => ?_) 31 (by omega)
    exact Finset.le_inf fun c _ => Finset.inf_le (Finset.mem_univ _)

/-- Column minima: entry `j` (column tile `j / 1024`) is active at the steps `s` with `s % 8 = j / 1024` and there meets the
row tile `s / 8`. -/
theorem acc_cols (D : Fin 8192 → Fin 8192 → EReal) (o : ℕ → Fin 8192 → EReal)
    (hstep : ∀ s (hs : s < 32) (j : Fin 8192), o s j =
        (if j.val / 1024 = s % 8
         then min (if s = 0 then ⊤ else o (s - 1) j)
           (Finset.univ.inf fun r : Fin 2048 => D ⟨(s / 8) * 2048 + r.val, by have := r.isLt; omega⟩ j)
         else (if s = 0 then ⊤ else o (s - 1) j))) :
    ∀ j : Fin 8192, o 31 j = Finset.univ.inf fun n' : Fin 8192 => D n' j := by
  intro j
  have hj := j.isLt
  have hs' : ∀ s, s < 32 → o s j =
      (if j.val / 1024 = s % 8
       then min (if s = 0 then ⊤ else o (s - 1) j)
         (if h : s < 32 then
            (Finset.univ.inf fun r : Fin 2048 => D ⟨(s / 8) * 2048 + r.val, by have := r.isLt; omega⟩ j)
          else ⊤)
       else (if s = 0 then ⊤ else o (s - 1) j)) := fun s hs => by
    rw [dif_pos hs]
    exact hstep s hs j
  apply le_antisymm
  · refine Finset.le_inf fun n' _ => ?_
    have hn := n'.isLt
    obtain ⟨t, ht⟩ : ∃ t, t = (n'.val / 2048) * 8 + j.val / 1024 := ⟨_, rfl⟩
    have ht32 : t < 32 := by omega
    have h1 := run_le_tile (fun s => o s j)
      (fun s => if h : s < 32 then
            (Finset.univ.inf fun r : Fin 2048 => D ⟨(s / 8) * 2048 + r.val, by have := r.isLt; omega⟩ j)
          else ⊤)
      (fun s => j.val / 1024 = s % 8) 32 hs' t (by beta_reduce; omega)
      31 (by omega) (by omega)
    simp only [dif_pos ht32] at h1
    refine h1.trans ?_
    refine (Finset.inf_le (Finset.mem_univ (⟨n'.val % 2048, Nat.mod_lt _ (by norm_num)⟩ : Fin 2048))).trans ?_
    refine le_of_eq (congrArg (fun x => D x j) (Fin.ext ?_))
    simp only
    omega
  · refine le_run (fun s => o s j)
      (fun s => if h : s < 32 then
            (Finset.univ.inf fun r : Fin 2048 => D ⟨(s / 8) * 2048 + r.val, by have := r.isLt; omega⟩ j)
          else ⊤)
      (fun s => j.val / 1024 = s % 8) 32 hs' _ (fun s hs _ => ?_) 31 (by omega)
    beta_reduce
    rw [dif_pos hs]
    exact Finset.le_inf fun r _ => Finset.inf_le (Finset.mem_univ _)

end Cert.Chamfer.Accum
-- ==== Proof.KI.Minima.lean ====
/-
  The kernel's two running minima, followed through a batch of the grid.

  A batch is 32 consecutive grid points, point `n·8 + m` holding row tile `n` (2048 points of the first cloud) and column
  tile `m` (1024 points of the second). The first output buffer is reset to +∞ at the batch's first point and, at every
  point, its entries of the point's row tile take the minimum with the tile's row minima of squared distances; the second
  likewise with column tiles and column minima. Read at one entry this is the recursion of a minimum accumulated tile by
  tile, so after the batch's last point entry `j` of the first buffer is the minimum over ALL second-cloud points of the
  squared distance to first-cloud point `j` — that point's distance to its nearest neighbour — and entry `j` of the second
  buffer the same with the clouds exchanged.
-/
import proofs.«167617_j65481071394839_2_alg».proof.Proof.KI.BodyDefs
import proofs.«167617_j65481071394839_2_alg».proof.Proof.KI.Payload
import proofs.«167617_j65481071394839_2_alg».proof.Proof.Spec
import proofs.«167617_j65481071394839_2_alg».proof.Proof.Accum
import Idealize.ShloMosaic.Lib.Pipeline.Value
import Idealize.ShloMosaic.Lib.ValueIdx
import Idealize.ShloMosaic.PureOps.Ideal.Laws

noncomputable section

namespace Cert.KernelIdeal.HandFinal
open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.KernelIdeal.HandValue

/-! ## Where each window's block sits in its array -/

theorem idx_facts0 : ∀ t : Fin cfg0.N, (cfg0.win 0).index t (0 : Fin 3) = t.val / 32 ∧ (cfg0.win 0).index t (1 : Fin 3) = (t.val / 8) % 4 ∧ (cfg0.win 0).index t (2 : Fin 3) = 0 :=
  (by decide +kernel : ∀ t : Fin grid0.N, win0_0.index t (0 : Fin 3) = t.val / 32 ∧ win0_0.index t (1 : Fin 3) = (t.val / 8) % 4 ∧ win0_0.index t (2 : Fin 3) = 0)
theorem idx_facts1 : ∀ t : Fin cfg0.N, (cfg0.win 1).index t (0 : Fin 3) = t.val / 32 ∧ (cfg0.win 1).index t (1 : Fin 3) = t.val % 8 ∧ (cfg0.win 1).index t (2 : Fin 3) = 0 :=
  (by decide +kernel : ∀ t : Fin grid0.N, win0_1.index t (0 : Fin 3) = t.val / 32 ∧ win0_1.index t (1 : Fin 3) = t.val % 8 ∧ win0_1.index t (2 : Fin 3) = 0)

section Blocks
variable {F : FTy → Type} [FloatOps F]
variable (m : (ℓ : Loc nD τ sig) → Buf (Elt F) ℓ)

/-- Row `r`, coordinate `k` of the first cloud's block at point `t` is row `tile·2048 + r` of batch `t / 32`. -/
theorem iblk0_apply (c : Dev nD) (t : Fin cfg0.N) (r : Fin 2048) (k : Fin 3) (b : Fin 4) (n : Fin 8192)
    (hb : b.val = t.val / 32) (hn : n.val = (t.val / 8) % 4 * 2048 + r.val) :
    (iblk m c 0 t : Vec F S1x2048x3 .f32) (ix3 0 r k) = m ((c : Thread nD τ).loc main_arg0) (ix3 b n k) := by
  unfold iblk
  show V m c main_arg0 (((cfg0.win 0).blk t).view.emb (ix3 0 r k)) = V m c main_arg0 (ix3 b n k)
  refine congrArg _ (funext fun a => Fin.ext ?_)
  obtain ⟨h0, h1, h2⟩ := idx_facts0 t
  match a with
  | ⟨0, _⟩ => show (cfg0.win 0).index t (0 : Fin 3) * 1 + 1 * 0 = b.val; rw [h0, hb]; omega
  | ⟨1, _⟩ => show (cfg0.win 0).index t (1 : Fin 3) * 2048 + 1 * r.val = n.val; rw [h1, hn]; omega
  | ⟨2, _⟩ => show (cfg0.win 0).index t (2 : Fin 3) * 3 + 1 * k.val = k.val; rw [h2]; omega

/-- Row `q`, coordinate `k` of the second cloud's block at point `t` is row `tile·1024 + q` of batch `t / 32`. -/
theorem iblk1_apply (c : Dev nD) (t : Fin cfg0.N) (q : Fin 1024) (k : Fin 3) (b : Fin 4) (n : Fin 8192)
    (hb : b.val = t.val / 32) (hn : n.val = t.val % 8 * 1024 + q.val) :
    (iblk m c 1 t : Vec F S1x1024x3 .f32) (ix3 0 q k) = m ((c : Thread nD τ).loc main_arg1) (ix3 b n k) := by
  unfold iblk
  show V m c main_arg1 (((cfg0.win 1).blk t).view.emb (ix3 0 q k)) = V m c main_arg1 (ix3 b n k)
  refine congrArg _ (funext fun a => Fin.ext ?_)
  obtain ⟨h0, h1, h2⟩ := idx_facts1 t
  match a with
  | ⟨0, _⟩ => show (cfg0.win 1).index t (0 : Fin 3) * 1 + 1 * 0 = b.val; rw [h0, hb]; omega
  | ⟨1, _⟩ => show (cfg0.win 1).index t (1 : Fin 3) * 1024 + 1 * q.val = n.val; rw [h1, hn]; omega
  | ⟨2, _⟩ => show (cfg0.win 1).index t (2 : Fin 3) * 3 + 1 * k.val = k.val; rw [h2]; omega
end Blocks

/-! ## The running minima, step by step -/

variable (m : (ℓ : Loc nD τ sig) → Buf (Elt Ideal) ℓ)

/-- The first cloud as the region finds it. -/
abbrev X0 (c : Dev nD) : FVec Ideal Cert.Chamfer.SX .f32 := m ((c : Thread nD τ).loc main_arg0)
/-- The second cloud as the region finds it. -/
abbrev X1 (c : Dev nD) : FVec Ideal Cert.Chamfer.SX .f32 := m ((c : Thread nD τ).loc main_arg1)

theorem hN : cfg0.N = 128 := N_0

theorem top_eq : FloatOps.ofBits (F := Ideal) .f32 0x7F800000#32 = (⊤ : EReal) := by
  simp [Ideal.ofBits, Ideal.ieee]

/-- A tile entry of squared distances is the specification's squared distance of the two points it stands for. -/
theorem dtile_eq (c : Dev nD) (t : Fin cfg0.N) (r : Fin 2048) (q : Fin 1024) (b : Fin 4) (n n' : Fin 8192)
    (hb : b.val = t.val / 32) (hn : n.val = (t.val / 8) % 4 * 2048 + r.val) (hn' : n'.val = t.val % 8 * 1024 + q.val) :
    dtile (iblk m c 0 t) (iblk m c 1 t) r q = Cert.Chamfer.sqd (X0 m c) (X1 m c) b n n' := by
  unfold dtile Cert.Chamfer.sqd
  rw [iblk0_apply m c t r 0 b n hb hn, iblk0_apply m c t r 1 b n hb hn, iblk0_apply m c t r 2 b n hb hn,
    iblk1_apply m c t q 0 b n' hb hn', iblk1_apply m c t q 1 b n' hb hn', iblk1_apply m c t q 2 b n' hb hn']

/-- Entry `j` of the first output's staging buffer after point `n` (+∞ past the grid). -/
def o1 (c : Dev nD) (n : ℕ) (j : Fin 8192) : EReal :=
  if h : n < cfg0.N then (outsAt0 m c n h).1 (ix3 0 0 j) else ⊤
/-- Entry `j` of the second output's staging buffer after point `n`. -/
def o2 (c : Dev nD) (n : ℕ) (j : Fin 8192) : EReal :=
  if h : n < cfg0.N then (outsAt0 m c n h).2 (ix3 0 0 j) else ⊤

/-- What the first buffer's entry held before the point: +∞ at a batch's first point, else what the point before left. -/
def prev1 (c : Dev nD) (t : Fin cfg0.N) (j : Fin 8192) : EReal := if t.val % 32 = 0 then ⊤ else o1 m c (t.val - 1) j
/-- The same for the second buffer. -/
def prev2 (c : Dev nD) (t : Fin cfg0.N) (j : Fin 8192) : EReal := if t.val % 32 = 0 then ⊤ else o2 m c (t.val - 1) j

/-- One point's update of the first buffer, read at entry `j`. -/
theorem upd1_apply (base : Vec Ideal S1x1x8192 .f32) (i : grid0.Coords) (v34 : FVec Ideal S1x2048 .f32) (j : Fin 8192) :
    upd1 base i v34 (ix3 0 0 j) =
      (if j.val / 2048 = (i 1).val then min (base (ix3 0 0 j)) (v34 (ix2 0 ⟨j.val % 2048, Nat.mod_lt _ (by norm_num)⟩))
       else base (ix3 0 0 j)) := rfl
/-- One point's update of the second buffer, read at entry `j`. -/
theorem upd2_apply (base : Vec Ideal S1x1x8192 .f32) (i : grid0.Coords) (v33 : FVec Ideal S1x1024 .f32) (j : Fin 8192) :
    upd2 base i v33 (ix3 0 0 j) =
      (if j.val / 1024 = (i 2).val then min (base (ix3 0 0 j)) (v33 (ix2 0 ⟨j.val % 1024, Nat.mod_lt _ (by norm_num)⟩))
       else base (ix3 0 0 j)) := rfl

/-- The first buffer after a point, read at one entry. -/
theorem outs1_apply (c : Dev nD) (t : Fin cfg0.N) (j : Fin 8192) :
    (outsAt0 m c t.val t.isLt).1 (ix3 0 0 j) =
      (if j.val / 2048 = (t.val / 8) % 4
       then min (prev1 m c t j) (k0_pay7 (F := Ideal) (blk0 m c t) (blk1 m c t) (ix2 0 ⟨j.val % 2048, Nat.mod_lt _ (by norm_num)⟩))
       else prev1 m c t j) := by
  unfold prev1
  by_cases h0 : t.val % 32 = 0
  · rw [outsAt0_A m c t h0, if_pos h0]
    refine (upd1_apply infV (grid0.coords t) (k0_pay7 (F := Ideal) (blk0 m c t) (blk1 m c t)) j).trans ?_
    rw [coords1_eq t, show infV (F := Ideal) (ix3 0 0 j) = (⊤ : EReal) from top_eq]
  · rw [outsAt0_B m c t h0, if_neg h0]
    refine (upd1_apply _ (grid0.coords t) (k0_pay7 (F := Ideal) (blk0 m c t) (blk1 m c t)) j).trans ?_
    have hp : o1 m c (t.val - 1) j = (outsAt0 m c (t.val - 1) (Nat.lt_of_le_of_lt (Nat.sub_le _ _) t.isLt)).1 (ix3 0 0 j) := by
      unfold o1; rw [dif_pos]
    rw [coords1_eq t, hp]

/-- The second buffer after a point, read at one entry. -/
theorem outs2_apply (c : Dev nD) (t : Fin cfg0.N) (j : Fin 8192) :
    (outsAt0 m c t.val t.isLt).2 (ix3 0 0 j) =
      (if j.val / 1024 = t.val % 8
       then min (prev2 m c t j) (k0_pay6 (F := Ideal) (blk0 m c t) (blk1 m c t) (ix2 0 ⟨j.val % 1024, Nat.mod_lt _ (by norm_num)⟩))
       else prev2 m c t j) := by
  unfold prev2
  by_cases h0 : t.val % 32 = 0
  · rw [outsAt0_A m c t h0, if_pos h0]
    refine (upd2_apply infV (grid0.coords t) (k0_pay6 (F := Ideal) (blk0 m c t) (blk1 m c t)) j).trans ?_
    rw [coords2_eq t, show infV (F := Ideal) (ix3 0 0 j) = (⊤ : EReal) from top_eq]
  · rw [outsAt0_B m c t h0, if_neg h0]
    refine (upd2_apply _ (grid0.coords t) (k0_pay6 (F := Ideal) (blk0 m c t) (blk1 m c t)) j).trans ?_
    have hp : o2 m c (t.val - 1) j = (outsAt0 m c (t.val - 1) (Nat.lt_of_le_of_lt (Nat.sub_le _ _) t.isLt)).2 (ix3 0 0 j) := by
      unfold o2; rw [dif_pos]
    rw [coords2_eq t, hp]

/-- One point's update of the first running minimum: entries of the point's row tile take the minimum with the
    tile's row minima, the others are kept; at a batch's first point the old value is +∞. -/
theorem o1_step (c : Dev nD) (n : ℕ) (hn : n < 128) (j : Fin 8192) (b : Fin 4) (hb : b.val = n / 32) :
    o1 m c n j =
      (if j.val / 2048 = (n / 8) % 4
       then min (if n % 32 = 0 then ⊤ else o1 m c (n - 1) j)
         (Finset.univ.inf fun q : Fin 1024 => Cert.Chamfer.sqd (X0 m c) (X1 m c) b j ⟨(n % 8) * 1024 + q.val, by have := q.isLt; omega⟩)
       else (if n % 32 = 0 then ⊤ else o1 m c (n - 1) j)) := by
  have hn' : n < cfg0.N := by rw [hN]; exact hn
  have e : o1 m c n j = (outsAt0 m c n hn').1 (ix3 0 0 j) := by unfold o1; rw [dif_pos hn']
  rw [e, outs1_apply m c ⟨n, hn'⟩ j]
  unfold prev1
  show (if j.val / 2048 = (n / 8) % 4 then _ else _) = _
  by_cases h : j.val / 2048 = (n / 8) % 4
  · rw [if_pos h, if_pos h, pay7_apply (blk0 m c ⟨n, hn'⟩) (blk1 m c ⟨n, hn'⟩)]
    refine congrArg (min _) (Finset.inf_congr rfl fun q _ => ?_)
    exact dtile_eq m c ⟨n, hn'⟩ ⟨j.val % 2048, Nat.mod_lt _ (by norm_num)⟩ q b j ⟨(n % 8) * 1024 + q.val, by have := q.isLt; omega⟩ hb
      (by show j.val = (n / 8) % 4 * 2048 + j.val % 2048; omega) rfl
  · rw [if_neg h, if_neg h]

theorem o2_step (c : Dev nD) (n : ℕ) (hn : n < 128) (j : Fin 8192) (b : Fin 4) (hb : b.val = n / 32) :
    o2 m c n j =
      (if j.val / 1024 = n % 8
       then min (if n % 32 = 0 then ⊤ else o2 m c (n - 1) j)
         (Finset.univ.inf fun r : Fin 2048 => Cert.Chamfer.sqd (X0 m c) (X1 m c) b ⟨(n / 8) % 4 * 2048 + r.val, by have := r.isLt; omega⟩ j)
       else (if n % 32 = 0 then ⊤ else o2 m c (n - 1) j)) := by
  have hn' : n < cfg0.N := by rw [hN]; exact hn
  have e : o2 m c n j = (outsAt0 m c n hn').2 (ix3 0 0 j) := by unfold o2; rw [dif_pos hn']
  rw [e, outs2_apply m c ⟨n, hn'⟩ j]
  unfold prev2
  show (if j.val / 1024 = n % 8 then _ else _) = _
  by_cases h : j.val / 1024 = n % 8
  · rw [if_pos h, if_pos h, pay6_apply (blk0 m c ⟨n, hn'⟩) (blk1 m c ⟨n, hn'⟩)]
    refine congrArg (min _) (Finset.inf_congr rfl fun r _ => ?_)
    exact dtile_eq m c ⟨n, hn'⟩ r ⟨j.val % 1024, Nat.mod_lt _ (by norm_num)⟩ b ⟨(n / 8) % 4 * 2048 + r.val, by have := r.isLt; omega⟩ j hb rfl
      (by show j.val = n % 8 * 1024 + j.val % 1024; omega)
  · rw [if_neg h, if_neg h]

/-- After a batch's last point the first running minimum is each point's distance to its nearest neighbour. -/
theorem o1_final (c : Dev nD) (b : Fin 4) (j : Fin 8192) :
    o1 m c (b.val * 32 + 31) j = Cert.Chamfer.dist1 (X0 m c) (X1 m c) (ix2 b j) := by
  have hb := b.isLt
  refine Cert.Chamfer.Accum.acc_rows (fun j m' => Cert.Chamfer.sqd (X0 m c) (X1 m c) b j m') (fun s j => o1 m c (b.val * 32 + s) j) ?_ j
  intro s hs j
  show o1 m c (b.val * 32 + s) j = (if j.val / 2048 = s / 8
      then min (if s = 0 then ⊤ else o1 m c (b.val * 32 + (s - 1)) j)
        (Finset.univ.inf fun q : Fin 1024 => Cert.Chamfer.sqd (X0 m c) (X1 m c) b j ⟨(s % 8) * 1024 + q.val, _⟩)
      else (if s = 0 then ⊤ else o1 m c (b.val * 32 + (s - 1)) j))
  rw [o1_step m c (b.val * 32 + s) (by omega) j b (by omega)]
  have e1 : (b.val * 32 + s) / 8 % 4 = s / 8 := by omega
  have hbase : (if (b.val * 32 + s) % 32 = 0 then (⊤ : EReal) else o1 m c (b.val * 32 + s - 1) j)
      = (if s = 0 then ⊤ else o1 m c (b.val * 32 + (s - 1)) j) := by
    by_cases hs0 : s = 0
    · rw [if_pos (by omega), if_pos hs0]
    · rw [if_neg (by omega), if_neg hs0, show b.val * 32 + s - 1 = b.val * 32 + (s - 1) by omega]
  have hD : (Finset.univ.inf fun q : Fin 1024 => Cert.Chamfer.sqd (X0 m c) (X1 m c) b j ⟨(b.val * 32 + s) % 8 * 1024 + q.val, by have := q.isLt; omega⟩)
      = (Finset.univ.inf fun q : Fin 1024 => Cert.Chamfer.sqd (X0 m c) (X1 m c) b j ⟨(s % 8) * 1024 + q.val, by have := q.isLt; omega⟩) :=
    Finset.inf_congr rfl fun q _ => congrArg _ (Fin.ext (by show (b.val * 32 + s) % 8 * 1024 + q.val = s % 8 * 1024 + q.val; omega))
  rw [hbase, hD, e1]

/-- After a batch's last point the second running minimum is each second-cloud point's distance to its nearest neighbour. -/
theorem o2_final (c : Dev nD) (b : Fin 4) (j : Fin 8192) :
    o2 m c (b.val * 32 + 31) j = Cert.Chamfer.dist2 (X0 m c) (X1 m c) (ix2 b j) := by
  have hb := b.isLt
  refine Cert.Chamfer.Accum.acc_cols (fun n' j => Cert.Chamfer.sqd (X0 m c) (X1 m c) b n' j) (fun s j => o2 m c (b.val * 32 + s) j) ?_ j
  intro s hs j
  show o2 m c (b.val * 32 + s) j = (if j.val / 1024 = s % 8
      then min (if s = 0 then ⊤ else o2 m c (b.val * 32 + (s - 1)) j)
        (Finset.univ.inf fun r : Fin 2048 => Cert.Chamfer.sqd (X0 m c) (X1 m c) b ⟨(s / 8) * 2048 + r.val, _⟩ j)
      else (if s = 0 then ⊤ else o2 m c (b.val * 32 + (s - 1)) j))
  rw [o2_step m c (b.val * 32 + s) (by omega) j b (by omega)]
  have e1 : (b.val * 32 + s) % 8 = s % 8 := by omega
  have hbase : (if (b.val * 32 + s) % 32 = 0 then (⊤ : EReal) else o2 m c (b.val * 32 + s - 1) j)
      = (if s = 0 then ⊤ else o2 m c (b.val * 32 + (s - 1)) j) := by
    by_cases hs0 : s = 0
    · rw [if_pos (by omega), if_pos hs0]
    · rw [if_neg (by omega), if_neg hs0, show b.val * 32 + s - 1 = b.val * 32 + (s - 1) by omega]
  have hD : (Finset.univ.inf fun r : Fin 2048 => Cert.Chamfer.sqd (X0 m c) (X1 m c) b ⟨(b.val * 32 + s) / 8 % 4 * 2048 + r.val, by have := r.isLt; omega⟩ j)
      = (Finset.univ.inf fun r : Fin 2048 => Cert.Chamfer.sqd (X0 m c) (X1 m c) b ⟨(s / 8) * 2048 + r.val, by have := r.isLt; omega⟩ j) :=
    Finset.inf_congr rfl fun r _ => congrArg (fun n' => Cert.Chamfer.sqd (X0 m c) (X1 m c) b n' j) (Fin.ext (by show (b.val * 32 + s) / 8 % 4 * 2048 + r.val = s / 8 * 2048 + r.val; omega))
  rw [hbase, hD, e1]

end Cert.KernelIdeal.HandFinal

end
-- ==== Proof.KI.Cover.lean ====
/- The two output windows of the region: each array has shape [4,1,8192], the block at a grid point is the whole
   [1,1,8192] row of batch b = t / 32, and it is written back at the last point of each batch (t % 32 = 31). Every
   index of an output array lies in the block of the flushing point of its batch; a block read back is the array's
   row of that batch. Generic in the float model. -/
import proofs.«167617_j65481071394839_2_alg».proof.Proof.KI.Host
import Idealize.ShloMosaic.Lib.Pipeline.Value
import Idealize.ShloMosaic.Lib.ValueIdx

set_option maxRecDepth 16384

noncomputable section

namespace Cert.KernelIdeal.HandCover

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable {F : FTy → Type} [FloatOps F]

/-! ## Output window 2 -/

/-- The printed index map of output window 2, decided over the grid: the block index is (t / 32, 0, 0). -/
theorem idx2 : ∀ t : Fin cfg0.N, win0_2.index t (0 : Fin 3) = t.val / 32 ∧ win0_2.index t (1 : Fin 3) = 0
    ∧ win0_2.index t (2 : Fin 3) = 0 :=
  (by decide +kernel : ∀ t : Fin grid0.N, _)

/-- An index of the array is in point t's block iff each coordinate is in the block's range on its axis. -/
theorem mem_blk2 (t : Fin cfg0.N) (i : S4x1x8192.Idx) :
    i ∈ ((cfg0.win 2).blk t).view.set ↔ ∀ a : Fin 3, win0_2.index t a * S1x1x8192.size a ≤ (i a).val
      ∧ (i a).val < win0_2.index t a * S1x1x8192.size a + S1x1x8192.size a := by
  show i ∈ ((View.whole main_v0_0).slice (win0_2.rect t)).set ↔ _
  rw [View.set_slice_whole, Rect.mem_set_unit]
  exact Iff.rfl

/-- Every index of output array 2 is in the block of a flushing point: the last point of its batch. -/
theorem cover2 (c : Dev nD) : ∀ i : ((cfg0.win 2).arr.view.loc (c.tc : Thread nD τ)).2.ty.Idx,
    ∃ t : Fin cfg0.N, (cfg0.win 2).flush t = true ∧ i ∈ ((cfg0.win 2).blk t).view.set := by
  intro (i : S4x1x8192.Idx)
  have h0 : (i 0).val < 4 := (i 0).isLt
  have h1 : (i 1).val < 1 := (i 1).isLt
  have h2 : (i 2).val < 8192 := (i 2).isLt
  let t : Fin cfg0.N := ⟨(i 0).val * 32 + 31, by show (i 0).val * 32 + 31 < 128; omega⟩
  have ht : t.val = (i 0).val * 32 + 31 := rfl
  refine ⟨t, (flush0_2 t).mpr (by omega), ?_⟩
  rw [mem_blk2]
  obtain ⟨e0, e1, e2⟩ := idx2 t
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 8192 ≤ (i 2).val ∧ (i 2).val < win0_2.index t (2 : Fin 3) * 8192 + 8192; omega

/-- Where point t's block of window 2 sits in the array: row b = t / 32. -/
theorem blk2_emb (t : Fin cfg0.N) (j : Fin 8192) (b : Fin 4) (hb : b.val = t.val / 32) :
    ((cfg0.win 2).blk t).view.emb (ix3 (0 : Fin 1) (0 : Fin 1) j) = (ix3 b (0 : Fin 1) j : S4x1x8192.Idx) := by
  obtain ⟨e0, e1, e2⟩ := idx2 t
  funext a; apply Fin.ext
  match a with
  | ⟨0, _⟩ => show win0_2.index t (0 : Fin 3) * 1 + 1 * 0 = b.val; omega
  | ⟨1, _⟩ => show win0_2.index t (1 : Fin 3) * 1 + 1 * 0 = 0; omega
  | ⟨2, _⟩ => show win0_2.index t (2 : Fin 3) * 8192 + 1 * j.val = j.val; omega

/-- Point t's block of window 2, read off contents G of the array, is G's row of batch b = t / 32. -/
theorem blk2_read (c : Dev nD) (G : Buf (Elt F) ((cfg0.win 2).arr.view.loc (c.tc : Thread nD τ))) (t : Fin cfg0.N) (j : Fin 8192)
    (b : Fin 4) (hb : b.val = t.val / 32) :
    (((cfg0.win 2).blk t).view.read (Elt F) G : Vec F S1x1x8192 .f32) (ix3 0 0 j) = G (ix3 b 0 j) := by
  show G (((cfg0.win 2).blk t).view.emb (ix3 (0 : Fin 1) (0 : Fin 1) j)) = G (ix3 b (0 : Fin 1) j)
  exact congrArg G (blk2_emb t j b hb)

/-- A [1,1,8192] vector that is G's row of batch b = t / 32 entry by entry is point t's block of window 2 read off G. -/
theorem blk2_ext (c : Dev nD) (G : Buf (Elt F) ((cfg0.win 2).arr.view.loc (c.tc : Thread nD τ))) (t : Fin cfg0.N)
    (X : Vec F S1x1x8192 .f32) (b : Fin 4) (hb : b.val = t.val / 32) (h : ∀ j : Fin 8192, X (ix3 0 0 j) = G (ix3 b 0 j)) :
    X = ((cfg0.win 2).blk t).view.read (Elt F) G := by
  funext x
  have hx : x = ix3 (0 : Fin 1) (0 : Fin 1) (x 2) := by
    have h0 : (x 0).val < 1 := (x 0).isLt
    have h1 : (x 1).val < 1 := (x 1).isLt
    funext a; apply Fin.ext
    match a with
    | ⟨0, _⟩ => show (x 0).val = 0; omega
    | ⟨1, _⟩ => show (x 1).val = 0; omega
    | ⟨2, _⟩ => rfl
  rw [hx]
  exact (h (x 2)).trans (blk2_read c G t (x 2) b hb).symm

/-! ## Output window 3 -/

/-- The printed index map of output window 3, decided over the grid: the block index is (t / 32, 0, 0). -/
theorem idx3 : ∀ t : Fin cfg0.N, win0_3.index t (0 : Fin 3) = t.val / 32 ∧ win0_3.index t (1 : Fin 3) = 0
    ∧ win0_3.index t (2 : Fin 3) = 0 :=
  (by decide +kernel : ∀ t : Fin grid0.N, _)

/-- An index of the array is in point t's block iff each coordinate is in the block's range on its axis. -/
theorem mem_blk3 (t : Fin cfg0.N) (i : S4x1x8192.Idx) :
    i ∈ ((cfg0.win 3).blk t).view.set ↔ ∀ a : Fin 3, win0_3.index t a * S1x1x8192.size a ≤ (i a).val
      ∧ (i a).val < win0_3.index t a * S1x1x8192.size a + S1x1x8192.size a := by
  show i ∈ ((View.whole main_v0_1).slice (win0_3.rect t)).set ↔ _
  rw [View.set_slice_whole, Rect.mem_set_unit]
  exact Iff.rfl

/-- Every index of output array 3 is in the block of a flushing point: the last point of its batch. -/
theorem cover3 (c : Dev nD) : ∀ i : ((cfg0.win 3).arr.view.loc (c.tc : Thread nD τ)).2.ty.Idx,
    ∃ t : Fin cfg0.N, (cfg0.win 3).flush t = true ∧ i ∈ ((cfg0.win 3).blk t).view.set := by
  intro (i : S4x1x8192.Idx)
  have h0 : (i 0).val < 4 := (i 0).isLt
  have h1 : (i 1).val < 1 := (i 1).isLt
  have h2 : (i 2).val < 8192 := (i 2).isLt
  let t : Fin cfg0.N := ⟨(i 0).val * 32 + 31, by show (i 0).val * 32 + 31 < 128; omega⟩
  have ht : t.val = (i 0).val * 32 + 31 := rfl
  refine ⟨t, (flush0_3 t).mpr (by omega), ?_⟩
  rw [mem_blk3]
  obtain ⟨e0, e1, e2⟩ := idx3 t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 8192 ≤ (i 2).val ∧ (i 2).val < win0_3.index t (2 : Fin 3) * 8192 + 8192; omega

/-- Where point t's block of window 3 sits in the array: row b = t / 32. -/
theorem blk3_emb (t : Fin cfg0.N) (j : Fin 8192) (b : Fin 4) (hb : b.val = t.val / 32) :
    ((cfg0.win 3).blk t).view.emb (ix3 (0 : Fin 1) (0 : Fin 1) j) = (ix3 b (0 : Fin 1) j : S4x1x8192.Idx) := by
  obtain ⟨e0, e1, e2⟩ := idx3 t
  funext a; apply Fin.ext
  match a with
  | ⟨0, _⟩ => show win0_3.index t (0 : Fin 3) * 1 + 1 * 0 = b.val; omega
  | ⟨1, _⟩ => show win0_3.index t (1 : Fin 3) * 1 + 1 * 0 = 0; omega
  | ⟨2, _⟩ => show win0_3.index t (2 : Fin 3) * 8192 + 1 * j.val = j.val; omega

/-- Point t's block of window 3, read off contents G of the array, is G's row of batch b = t / 32. -/
theorem blk3_read (c : Dev nD) (G : Buf (Elt F) ((cfg0.win 3).arr.view.loc (c.tc : Thread nD τ))) (t : Fin cfg0.N) (j : Fin 8192)
    (b : Fin 4) (hb : b.val = t.val / 32) :
    (((cfg0.win 3).blk t).view.read (Elt F) G : Vec F S1x1x8192 .f32) (ix3 0 0 j) = G (ix3 b 0 j) := by
  show G (((cfg0.win 3).blk t).view.emb (ix3 (0 : Fin 1) (0 : Fin 1) j)) = G (ix3 b (0 : Fin 1) j)
  exact congrArg G (blk3_emb t j b hb)

/-- A [1,1,8192] vector that is G's row of batch b = t / 32 entry by entry is point t's block of window 3 read off G. -/
theorem blk3_ext (c : Dev nD) (G : Buf (Elt F) ((cfg0.win 3).arr.view.loc (c.tc : Thread nD τ))) (t : Fin cfg0.N)
    (X : Vec F S1x1x8192 .f32) (b : Fin 4) (hb : b.val = t.val / 32) (h : ∀ j : Fin 8192, X (ix3 0 0 j) = G (ix3 b 0 j)) :
    X = ((cfg0.win 3).blk t).view.read (Elt F) G := by
  funext x
  have hx : x = ix3 (0 : Fin 1) (0 : Fin 1) (x 2) := by
    have h0 : (x 0).val < 1 := (x 0).isLt
    have h1 : (x 1).val < 1 := (x 1).isLt
    funext a; apply Fin.ext
    match a with
    | ⟨0, _⟩ => show (x 0).val = 0; omega
    | ⟨1, _⟩ => show (x 1).val = 0; omega
    | ⟨2, _⟩ => rfl
  rw [hx]
  exact (h (x 2)).trans (blk3_read c G t (x 2) b hb).symm

end Cert.KernelIdeal.HandCover

end
-- ==== Proof.KI.Final.lean ====
/-
  The two arrays the kernel's region leaves, and hence what the host chain after it is applied to.

  Each output array [4, 1, 8192] is written back once per batch, at the batch's last grid point, with the whole row
  of that batch; by then the running minimum kept in the staging buffer is complete (Minima). The four write-backs
  cover the array, so after the run entry (b, 0, n) of the first array is first-cloud point n's squared distance to
  its nearest second-cloud point in batch b, and the second array the same with the clouds exchanged. Dropping the
  middle axis of extent one keeps the entries, so the arrays the tail reads are the specification's `dist1`, `dist2`.
-/
import proofs.«167617_j65481071394839_2_alg».proof.Proof.KI.Body
import proofs.«167617_j65481071394839_2_alg».proof.Proof.KI.Minima
import proofs.«167617_j65481071394839_2_alg».proof.Proof.KI.Cover
import proofs.«167617_j65481071394839_2_alg».proof.Proof.KI.Tail
import Idealize.ShloMosaic.Lib.Pipeline.Value
import Idealize.ShloMosaic.Lib.ValueIdx

noncomputable section

namespace Cert.KernelIdeal.HandFinal
open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable (m : (ℓ : Loc nD τ sig) → Buf (Elt Ideal) ℓ)

/-! ## The arrays the region leaves -/

/-- What the first output array ends holding: entry (b, 0, n) is point n's distance to its nearest neighbour in batch b. -/
def G1 (c : Dev nD) : Buf (Elt Ideal) ((cfg0.win 2).arr.view.loc (c.tc : Thread nD τ)) :=
  (fun i => Cert.Chamfer.dist1 (X0 m c) (X1 m c) (ix2 (i 0) (i 2)) : FVec Ideal S4x1x8192 .f32)
/-- What the second output array ends holding. -/
def G2 (c : Dev nD) : Buf (Elt Ideal) ((cfg0.win 3).arr.view.loc (c.tc : Thread nD τ)) :=
  (fun i => Cert.Chamfer.dist2 (X0 m c) (X1 m c) (ix2 (i 0) (i 2)) : FVec Ideal S4x1x8192 .f32)

/-- What a batch's last point writes back is the batch's row of the final array. -/
theorem flushed2_eq (c : Dev nD) (t : Fin cfg0.N) (hf : (cfg0.win 2).flush t = true) :
    (dats m 0 c).flushed 2 t = ((cfg0.win 2).blk t).view.read (Elt Ideal) (G1 m c) := by
  have h31 : t.val % 32 = 31 := (flush0_2 t).mp hf
  have hlt : t.val < 128 := lt_of_lt_of_eq t.isLt hN
  show (cfg0.win 2).cut (grid0.coords t) ((dats m 0 c).after 2 t) = _
  rw [after0_2]
  refine Cert.KernelIdeal.HandCover.blk2_ext (F := Ideal) c (G1 m c) t _ ⟨t.val / 32, by omega⟩ rfl (fun j => ?_)
  have h := o1_final m c ⟨t.val / 32, by omega⟩ j
  have ht : t.val / 32 * 32 + 31 = t.val := by omega
  unfold o1 at h
  simp only [ht] at h
  rw [dif_pos t.isLt] at h
  exact h

theorem flushed3_eq (c : Dev nD) (t : Fin cfg0.N) (hf : (cfg0.win 3).flush t = true) :
    (dats m 0 c).flushed 3 t = ((cfg0.win 3).blk t).view.read (Elt Ideal) (G2 m c) := by
  have h31 : t.val % 32 = 31 := (flush0_3 t).mp hf
  have hlt : t.val < 128 := lt_of_lt_of_eq t.isLt hN
  show (cfg0.win 3).cut (grid0.coords t) ((dats m 0 c).after 3 t) = _
  rw [after0_3]
  refine Cert.KernelIdeal.HandCover.blk3_ext (F := Ideal) c (G2 m c) t _ ⟨t.val / 32, by omega⟩ rfl (fun j => ?_)
  have h := o2_final m c ⟨t.val / 32, by omega⟩ j
  have ht : t.val / 32 * 32 + 31 = t.val := by omega
  unfold o2 at h
  simp only [ht] at h
  rw [dif_pos t.isLt] at h
  exact h

/-- The first output array after the run. -/
theorem final2 (c : Dev nD) : (dats m 0 c).arrAt 2 cfg0.N = G1 m c :=
  (dats m 0 c).arrAt_eq_of_cover 2 (G1 m c) (fun t hf => flushed2_eq m c t hf) (Cert.KernelIdeal.HandCover.cover2 c)
/-- The second output array after the run. -/
theorem final3 (c : Dev nD) : (dats m 0 c).arrAt 3 cfg0.N = G2 m c :=
  (dats m 0 c).arrAt_eq_of_cover 3 (G2 m c) (fun t hf => flushed3_eq m c t hf) (Cert.KernelIdeal.HandCover.cover3 c)

/-- Dropping a middle axis of extent one keeps the entries: entry (b, n) of the flattened array is entry (b, 0, n). -/
theorem reshape_mid_unit {α : Type} (G : (⟨3, ![4, 1, 8192]⟩ : Shape).Idx → α)
    (h : (⟨3, ![4, 1, 8192]⟩ : Shape).ShapeCasts ⟨2, ![4, 8192]⟩) (b : Fin 4) (j : Fin 8192) :
    shapeCast (⟨2, ![4, 8192]⟩ : Shape) G h (ix2 b j) = G (ix3 b 0 j) := by
  refine shapeCast_apply G h (ix2 b j) (ix3 b 0 j) ?_
  rw [Shape.rowMajor_val_three, Shape.rowMajor_val_two]
  show (b.val * 1 + 0) * 8192 + j.val = b.val * 8192 + j.val
  omega

/-- The two arrays the tail is applied to are the specification's distance arrays of the two clouds. -/
theorem D1_eq (c : Dev nD) : Cert.KernelIdeal.HandTail.D1 (dats m) c = Cert.Chamfer.dist1 (X0 m c) (X1 m c) := by
  unfold Cert.KernelIdeal.HandTail.D1 Cert.KernelIdeal.HandTail.flat2
  rw [final2]
  funext i
  rw [eq_ix2 i]
  exact reshape_mid_unit (G1 m c : FVec Ideal S4x1x8192 .f32) _ (i 0) (i 1)
theorem D2_eq (c : Dev nD) : Cert.KernelIdeal.HandTail.D2 (dats m) c = Cert.Chamfer.dist2 (X0 m c) (X1 m c) := by
  unfold Cert.KernelIdeal.HandTail.D2 Cert.KernelIdeal.HandTail.flat2
  rw [final3]
  funext i
  rw [eq_ix2 i]
  exact reshape_mid_unit (G2 m c : FVec Ideal S4x1x8192 .f32) _ (i 0) (i 1)

end Cert.KernelIdeal.HandFinal

end
-- ==== Proof.K.Host.lean ====
/- @main of the kernel program around its one region: the host lines after the region (four stretches,
   67 operations), what they may touch, that they allocate nothing and write no array of the pipeline, the argument
   arrays' contents at the region's entry and after the tail, each window's block at a grid point, and the frame
   claim's post from a frame run. Everything is generic in the float model. -/
import proofs.«167617_j65481071394839_2_alg».proof.Proof.Gen.Kernel.Launch
import proofs.«167617_j65481071394839_2_alg».proof.Proof.Gen.Kernel.Skeleton
import proofs.«167617_j65481071394839_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The four stretches of host lines after the region, in order: 59 operations of @main, the three of the first
    inlined selection, two more of @main, the three of the second inlined selection. -/
abbrev tailOps : List (List (HloOp τ sig (Elt F))) := [hostOps1, hostOps1_1, hostOps1_2, hostOps1_3]

/-- Core c's TensorCore buffer contents when the region is entered, as a valuation: no host operation precedes the
    region, so these are the launch contents. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

/-- @main around the region: nothing before it, the region, the four stretches after it; it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3]) :=
  Pipeline.hmain_around cfgs 0 defs₀ 𝒱₀ m main [] tailOps (by simp only [List.Forall])
    (by simp only [List.Forall]) main_chain

/-- The lines after the region touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop

/-! ### No line after the region writes an array of the pipeline -/

/-- The pipeline's four arrays: the two arguments and the two results of the region. -/
theorem arrRef_cases (w : Fin cfg0.W) : Pipeline.arrRef spec0 w = main_arg0 ∨ Pipeline.arrRef spec0 w = main_arg1
    ∨ Pipeline.arrRef spec0 w = main_v0_0 ∨ Pipeline.arrRef spec0 w = main_v0_1 := by
  revert w; decide

/-- Reference b is written by no operation of the list: each operation writes its own result buffer only, and that
    is another reference. -/
local macro "no_write" ops:ident : tactic => `(tactic| (
  simp only [$ops:ident, List.Forall, StableHlo.TRef.unary, StableHlo.TRef.ternary, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

theorem hostOps1_keeps_arg0 : (hostOps1 : List (HloOp τ sig (Elt F))).Forall fun op => Proc.devRef .tc main_arg0 ∉ op.writes := by no_write hostOps1
theorem hostOps1_keeps_arg1 : (hostOps1 : List (HloOp τ sig (Elt F))).Forall fun op => Proc.devRef .tc main_arg1 ∉ op.writes := by no_write hostOps1
theorem hostOps1_keeps_v0_0 : (hostOps1 : List (HloOp τ sig (Elt F))).Forall fun op => Proc.devRef .tc main_v0_0 ∉ op.writes := by no_write hostOps1
theorem hostOps1_keeps_v0_1 : (hostOps1 : List (HloOp τ sig (Elt F))).Forall fun op => Proc.devRef .tc main_v0_1 ∉ op.writes := by no_write hostOps1
theorem hostOps1_1_keeps_arg0 : (hostOps1_1 : List (HloOp τ sig (Elt F))).Forall fun op => Proc.devRef .tc main_arg0 ∉ op.writes := by no_write hostOps1_1
theorem hostOps1_1_keeps_arg1 : (hostOps1_1 : List (HloOp τ sig (Elt F))).Forall fun op => Proc.devRef .tc main_arg1 ∉ op.writes := by no_write hostOps1_1
theorem hostOps1_1_keeps_v0_0 : (hostOps1_1 : List (HloOp τ sig (Elt F))).Forall fun op => Proc.devRef .tc main_v0_0 ∉ op.writes := by no_write hostOps1_1
theorem hostOps1_1_keeps_v0_1 : (hostOps1_1 : List (HloOp τ sig (Elt F))).Forall fun op => Proc.devRef .tc main_v0_1 ∉ op.writes := by no_write hostOps1_1
theorem hostOps1_2_keeps_arg0 : (hostOps1_2 : List (HloOp τ sig (Elt F))).Forall fun op => Proc.devRef .tc main_arg0 ∉ op.writes := by no_write hostOps1_2
theorem hostOps1_2_keeps_arg1 : (hostOps1_2 : List (HloOp τ sig (Elt F))).Forall fun op => Proc.devRef .tc main_arg1 ∉ op.writes := by no_write hostOps1_2
theorem hostOps1_2_keeps_v0_0 : (hostOps1_2 : List (HloOp τ sig (Elt F))).Forall fun op => Proc.devRef .tc main_v0_0 ∉ op.writes := by no_write hostOps1_2
theorem hostOps1_2_keeps_v0_1 : (hostOps1_2 : List (HloOp τ sig (Elt F))).Forall fun op => Proc.devRef .tc main_v0_1 ∉ op.writes := by no_write hostOps1_2
theorem hostOps1_3_keeps_arg0 : (hostOps1_3 : List (HloOp τ sig (Elt F))).Forall fun op => Proc.devRef .tc main_arg0 ∉ op.writes := by no_write hostOps1_3
theorem hostOps1_3_keeps_arg1 : (hostOps1_3 : List (HloOp τ sig (Elt F))).Forall fun op => Proc.devRef .tc main_arg1 ∉ op.writes := by no_write hostOps1_3
theorem hostOps1_3_keeps_v0_0 : (hostOps1_3 : List (HloOp τ sig (Elt F))).Forall fun op => Proc.devRef .tc main_v0_0 ∉ op.writes := by no_write hostOps1_3
theorem hostOps1_3_keeps_v0_1 : (hostOps1_3 : List (HloOp τ sig (Elt F))).Forall fun op => Proc.devRef .tc main_v0_1 ∉ op.writes := by no_write hostOps1_3

/-- And write no array of the pipeline (each writes only its own result buffer, which is no array). -/
theorem sfx_keeps : ∀ ops ∈ (tailOps : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases arrRef_cases w with e | e | e | e <;> rw [e] <;> rcases hops with rfl | rfl | rfl | rfl
  · exact (List.forall_iff_forall_mem.mp hostOps1_keeps_arg0) op hop
  · exact (List.forall_iff_forall_mem.mp hostOps1_1_keeps_arg0) op hop
  · exact (List.forall_iff_forall_mem.mp hostOps1_2_keeps_arg0) op hop
  · exact (List.forall_iff_forall_mem.mp hostOps1_3_keeps_arg0) op hop
  · exact (List.forall_iff_forall_mem.mp hostOps1_keeps_arg1) op hop
  · exact (List.forall_iff_forall_mem.mp hostOps1_1_keeps_arg1) op hop
  · exact (List.forall_iff_forall_mem.mp hostOps1_2_keeps_arg1) op hop
  · exact (List.forall_iff_forall_mem.mp hostOps1_3_keeps_arg1) op hop
  · exact (List.forall_iff_forall_mem.mp hostOps1_keeps_v0_0) op hop
  · exact (List.forall_iff_forall_mem.mp hostOps1_1_keeps_v0_0) op hop
  · exact (List.forall_iff_forall_mem.mp hostOps1_2_keeps_v0_0) op hop
  · exact (List.forall_iff_forall_mem.mp hostOps1_3_keeps_v0_0) op hop
  · exact (List.forall_iff_forall_mem.mp hostOps1_keeps_v0_1) op hop
  · exact (List.forall_iff_forall_mem.mp hostOps1_1_keeps_v0_1) op hop
  · exact (List.forall_iff_forall_mem.mp hostOps1_2_keeps_v0_1) op hop
  · exact (List.forall_iff_forall_mem.mp hostOps1_3_keeps_v0_1) op hop

/-! ## The argument arrays -/

/-- No host operation precedes the region: it finds main_arg0 as launched. -/
theorem V_main_arg0 (c : Dev nD) : V m c main_arg0 = m ((c : Thread nD τ).loc main_arg0) := rfl
/-- No host operation precedes the region: it finds main_arg1 as launched. -/
theorem V_main_arg1 (c : Dev nD) : V m c main_arg1 = m ((c : Thread nD τ).loc main_arg1) := rfl

/-- Membership in the flattened tail is membership in one of its four stretches. -/
theorem mem_tail {op : HloOp τ sig (Elt F)} (hop : op ∈ List.flatten (tailOps : List (List (HloOp τ sig (Elt F))))) :
    op ∈ (hostOps1 : List (HloOp τ sig (Elt F))) ∨ op ∈ (hostOps1_1 : List (HloOp τ sig (Elt F)))
      ∨ op ∈ (hostOps1_2 : List (HloOp τ sig (Elt F))) ∨ op ∈ (hostOps1_3 : List (HloOp τ sig (Elt F))) := by
  rw [List.mem_flatten] at hop
  obtain ⟨ops, hops, hop⟩ := hop
  simp only [List.mem_cons, List.mem_nil_iff, or_false] at hops
  rcases hops with rfl | rfl | rfl | rfl
  · exact Or.inl hop
  · exact Or.inr (Or.inl hop)
  · exact Or.inr (Or.inr (Or.inl hop))
  · exact Or.inr (Or.inr (Or.inr hop))

/-- No line of the flattened tail writes main_arg0. -/
theorem tail_keeps_arg0 : ∀ op ∈ List.flatten (tailOps : List (List (HloOp τ sig (Elt F)))), Proc.devRef .tc main_arg0 ∉ op.writes := by
  intro op hop
  rcases mem_tail hop with h | h | h | h
  · exact (List.forall_iff_forall_mem.mp hostOps1_keeps_arg0) op h
  · exact (List.forall_iff_forall_mem.mp hostOps1_1_keeps_arg0) op h
  · exact (List.forall_iff_forall_mem.mp hostOps1_2_keeps_arg0) op h
  · exact (List.forall_iff_forall_mem.mp hostOps1_3_keeps_arg0) op h
/-- No line of the flattened tail writes main_arg1. -/
theorem tail_keeps_arg1 : ∀ op ∈ List.flatten (tailOps : List (List (HloOp τ sig (Elt F)))), Proc.devRef .tc main_arg1 ∉ op.writes := by
  intro op hop
  rcases mem_tail hop with h | h | h | h
  · exact (List.forall_iff_forall_mem.mp hostOps1_keeps_arg1) op h
  · exact (List.forall_iff_forall_mem.mp hostOps1_1_keeps_arg1) op h
  · exact (List.forall_iff_forall_mem.mp hostOps1_2_keeps_arg1) op h
  · exact (List.forall_iff_forall_mem.mp hostOps1_3_keeps_arg1) op h

/-- main_arg0 is the array of input window 0: the region never writes it back, and no host operation after the region
    writes it, so for proof data whose arrays are the region-entry contents it ends as launched. -/
theorem W_main_arg0 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ tail_keeps_arg0]
  exact (Pipeline.withArrays_arr spec0 launch0.win.arr_inj c _ _ 0).trans
    (((dats 0 c).arrAt_in 0 rfl _).trans ((hA c 0).trans (V_main_arg0 m c)))
/-- The same for main_arg1, the array of input window 1. -/
theorem W_main_arg1 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ tail_keeps_arg1]
  exact (Pipeline.withArrays_arr spec0 launch0.win.arr_inj c _ _ 1).trans
    (((dats 0 c).arrAt_in 1 rfl _).trans ((hA c 1).trans (V_main_arg1 m c)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for input window 1. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run to the frame
    post read at the two argument arrays — each a staged input, never written back — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c)))⟩) h

end Cert.Kernel.Hand

end
-- ==== Proof.K.BodyDefs.lean ====
/- What the two output staging buffers of the kernel hold after the body at each grid point, as a recursion on the
   point: each buffer is reset to +∞ at the first point of a batch and, at every point, one tile of it is replaced by
   the minimum of what it held and the point's new minima. Everything is generic in the float model. -/
import proofs.«167617_j65481071394839_2_alg».proof.Proof.K.Host
import Idealize.ShloMosaic.Lib.WritesUnit
import Idealize.ShloMosaic.Lib.WholeRead
import Idealize.ShloMosaic.Lib.ValueIdx
import Idealize.ShloMosaic.Lib.ValueLayout

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## The body's branch condition and the coordinates in closed form -/

/-- The condition of the body's conditional, from the grid coordinates (the skeleton's scalar chain substituted). -/
abbrev cond0_0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- It holds at the first point of each batch only: decided over the grid. -/
theorem hcond0_0 : ∀ t : Fin cfg0.N, cond0_0 (grid0.coords t) ↔ t.val % 32 = 0 :=
  (by decide +kernel : ∀ t : Fin grid0.N, cond0_0 (grid0.coords t) ↔ t.val % 32 = 0)

/-- The grid is walked lexicographically: the three coordinates of point t. -/
theorem coords0_eq : ∀ t : Fin cfg0.N, ((grid0.coords t) 0).val = t.val / 32 :=
  (by decide +kernel : ∀ t : Fin grid0.N, ((grid0.coords t) 0).val = t.val / 32)
theorem coords1_eq : ∀ t : Fin cfg0.N, ((grid0.coords t) 1).val = (t.val / 8) % 4 :=
  (by decide +kernel : ∀ t : Fin grid0.N, ((grid0.coords t) 1).val = (t.val / 8) % 4)
theorem coords2_eq : ∀ t : Fin cfg0.N, ((grid0.coords t) 2).val = t.val % 8 :=
  (by decide +kernel : ∀ t : Fin grid0.N, ((grid0.coords t) 2).val = t.val % 8)

/-! ## One point's update of an output buffer -/

/-- The value the buffers are reset to at the first point of a batch: +∞ everywhere. -/
def infV : Vec F S1x1x8192 .f32 := fun _ => FloatOps.ofBits .f32 0x7F800000#32

/-- The first output buffer after one point: on the tile of 2048 entries the point's second coordinate selects, the
    minimum of what the buffer held (first operand) and the new row minima v34; elsewhere what it held. -/
def upd1 (base : Vec F S1x1x8192 .f32) (i : grid0.Coords) (v34 : FVec F S1x2048 .f32) : Vec F S1x1x8192 .f32 :=
  fun y => if (y 2).val / 2048 = (i 1).val
    then FloatOps.minimumf (base y) (v34 (ix2 0 ⟨(y 2).val % 2048, Nat.mod_lt _ (by norm_num)⟩))
    else base y

/-- The second output buffer after one point: on the tile of 1024 entries the point's third coordinate selects, the
    minimum of what the buffer held and the new column minima v33; elsewhere what it held. -/
def upd2 (base : Vec F S1x1x8192 .f32) (i : grid0.Coords) (v33 : FVec F S1x1024 .f32) : Vec F S1x1x8192 .f32 :=
  fun y => if (y 2).val / 1024 = (i 2).val
    then FloatOps.minimumf (base y) (v33 (ix2 0 ⟨(y 2).val % 1024, Nat.mod_lt _ (by norm_num)⟩))
    else base y

/-! ## What the outputs hold after each point -/

/-- The two input blocks at a point, at the shapes the body loads them with. -/
abbrev blk0 (c : Dev nD) (t : Fin cfg0.N) : Vec F S1x2048x3 .f32 := iblk m c 0 t
abbrev blk1 (c : Dev nD) (t : Fin cfg0.N) : Vec F S1x1024x3 .f32 := iblk m c 1 t

/-- What the two output staging buffers hold after the body at position n: at the first point of a batch the update
    of the reset buffer, at any other point the update of what the point before left (the buffer is not written back
    in between). -/
def outsAt0 (c : Dev nD) : (n : ℕ) → n < cfg0.N → Vec F S1x1x8192 .f32 × Vec F S1x1x8192 .f32
  | 0, hn =>
    (upd1 infV (grid0.coords ⟨0, hn⟩) (k0_pay7 (blk0 m c ⟨0, hn⟩) (blk1 m c ⟨0, hn⟩)),
     upd2 infV (grid0.coords ⟨0, hn⟩) (k0_pay6 (blk0 m c ⟨0, hn⟩) (blk1 m c ⟨0, hn⟩)))
  | n + 1, hn =>
    if h0 : (n + 1) % 32 = 0 then
      (upd1 infV (grid0.coords ⟨n + 1, hn⟩) (k0_pay7 (blk0 m c ⟨n + 1, hn⟩) (blk1 m c ⟨n + 1, hn⟩)),
       upd2 infV (grid0.coords ⟨n + 1, hn⟩) (k0_pay6 (blk0 m c ⟨n + 1, hn⟩) (blk1 m c ⟨n + 1, hn⟩)))
    else
      (upd1 (outsAt0 c n (Nat.lt_of_succ_lt hn)).1 (grid0.coords ⟨n + 1, hn⟩) (k0_pay7 (blk0 m c ⟨n + 1, hn⟩) (blk1 m c ⟨n + 1, hn⟩)),
       upd2 (outsAt0 c n (Nat.lt_of_succ_lt hn)).2 (grid0.coords ⟨n + 1, hn⟩) (k0_pay6 (blk0 m c ⟨n + 1, hn⟩) (blk1 m c ⟨n + 1, hn⟩)))

/-- outsAt0 at the first point of a batch. -/
theorem outsAt0_A (c : Dev nD) (t : Fin cfg0.N) (h0 : t.val % 32 = 0) :
    outsAt0 m c t.val t.isLt =
      (upd1 infV (grid0.coords t) (k0_pay7 (blk0 m c t) (blk1 m c t)), upd2 infV (grid0.coords t) (k0_pay6 (blk0 m c t) (blk1 m c t))) := by
  obtain ⟨n, hn⟩ := t
  cases n with
  | zero => exact rfl
  | succ n => exact (dif_pos h0).trans rfl

/-- outsAt0 at any other point: the update of what the point before left. -/
theorem outsAt0_B (c : Dev nD) (t : Fin cfg0.N) (h0 : ¬t.val % 32 = 0) :
    outsAt0 m c t.val t.isLt =
      (upd1 (outsAt0 m c (t.val - 1) (Nat.lt_of_le_of_lt (Nat.sub_le _ _) t.isLt)).1 (grid0.coords t) (k0_pay7 (blk0 m c t) (blk1 m c t)),
       upd2 (outsAt0 m c (t.val - 1) (Nat.lt_of_le_of_lt (Nat.sub_le _ _) t.isLt)).2 (grid0.coords t) (k0_pay6 (blk0 m c t) (blk1 m c t))) := by
  obtain ⟨n, hn⟩ := t
  cases n with
  | zero => exact (by exfalso; (try dsimp only at h0); exact absurd (Nat.zero_mod _) h0)
  | succ n => exact (dif_neg h0).trans rfl

end Cert.Kernel.Hand

end
-- ==== Proof.K.Body.lean ====
/- The kernel body's symbolic run and the proof data of the one pipeline: on whole staging memrefs the body, in each of
   its two control cases, leaves each output buffer at the one-point update of what it held (case B) or of the reset
   buffer (case A); from that the body obligation at every grid point, the run of @main and the frame. Everything is
   generic in the float model. -/
import proofs.«167617_j65481071394839_2_alg».proof.Proof.K.BodyDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## Reading the pieces -/

/-- One store of a tile of 2048 along the last axis at offset 2048 * n, read at an index of the buffer: inside the tile the
    payload at the index's position within the tile, outside it what the rest of the list left. -/
theorem read_tile2048 {κ : Kind} {sp : Space} (v : View sig κ sp S1x1x8192 .f32) (g : v.ty.Contents (Elt F))
    {off : Fin 3 → ℕ} (inb : ∀ a, off a + (![1, 1, 2048] : Fin 3 → ℕ) a ≤ S1x1x8192.size a)
    (w : (Rect.unit (s := S1x1x8192) off ![1, 1, 2048] inb).shape.Idx → Elt F .f32) (L : List (View.Piece (Elt F) S1x1x8192 .f32))
    (n : ℕ) (heq : off = ![0, 0, 2048 * n]) (j : Fin 8192) :
    v.read (Elt F) (v.writes (Elt F) g ((⟨Rect.unit off ![1, 1, 2048] inb, w⟩ : View.Piece (Elt F) S1x1x8192 .f32) :: L)) (ix3 0 0 j)
      = if j.val / 2048 = n then w (ix3 (0 : Fin 1) (0 : Fin 1) (⟨j.val % 2048, Nat.mod_lt _ (by norm_num)⟩ : Fin 2048))
        else v.read (Elt F) (v.writes (Elt F) g L) (ix3 0 0 j) := by
  by_cases h : j.val / 2048 = n
  · rw [if_pos h]
    exact View.read_writes_cons_unit_of_mem v g inb w L _ _ heq (fun a => by
      match a with
      | ⟨0, _⟩ => rfl
      | ⟨1, _⟩ => rfl
      | ⟨2, _⟩ => show j.val = 2048 * n + j.val % 2048; omega)
  · rw [if_neg h]
    exact View.read_writes_cons_unit_of_not_mem v g inb w L _ heq 2 (by
      show j.val < 2048 * n ∨ 2048 * n + 2048 ≤ j.val; omega)

/-- One store of a tile of 1024 along the last axis at offset 1024 * n, read at an index of the buffer: inside the tile the
    payload at the index's position within the tile, outside it what the rest of the list left. -/
theorem read_tile1024 {κ : Kind} {sp : Space} (v : View sig κ sp S1x1x8192 .f32) (g : v.ty.Contents (Elt F))
    {off : Fin 3 → ℕ} (inb : ∀ a, off a + (![1, 1, 1024] : Fin 3 → ℕ) a ≤ S1x1x8192.size a)
    (w : (Rect.unit (s := S1x1x8192) off ![1, 1, 1024] inb).shape.Idx → Elt F .f32) (L : List (View.Piece (Elt F) S1x1x8192 .f32))
    (n : ℕ) (heq : off = ![0, 0, 1024 * n]) (j : Fin 8192) :
    v.read (Elt F) (v.writes (Elt F) g ((⟨Rect.unit off ![1, 1, 1024] inb, w⟩ : View.Piece (Elt F) S1x1x8192 .f32) :: L)) (ix3 0 0 j)
      = if j.val / 1024 = n then w (ix3 (0 : Fin 1) (0 : Fin 1) (⟨j.val % 1024, Nat.mod_lt _ (by norm_num)⟩ : Fin 1024))
        else v.read (Elt F) (v.writes (Elt F) g L) (ix3 0 0 j) := by
  by_cases h : j.val / 1024 = n
  · rw [if_pos h]
    exact View.read_writes_cons_unit_of_mem v g inb w L _ _ heq (fun a => by
      match a with
      | ⟨0, _⟩ => rfl
      | ⟨1, _⟩ => rfl
      | ⟨2, _⟩ => show j.val = 1024 * n + j.val % 1024; omega)
  · rw [if_neg h]
    exact View.read_writes_cons_unit_of_not_mem v g inb w L _ heq 2 (by
      show j.val < 1024 * n ∨ 1024 * n + 1024 ≤ j.val; omega)

/-- A store through the whole buffer's rectangle reads back its payload. -/
theorem read_whole_store {κ : Kind} {sp : Space} (v : View sig κ sp S1x1x8192 .f32) (g : v.ty.Contents (Elt F))
    (inb : ∀ a, (![0, 0, 0] : Fin 3 → ℕ) a + S1x1x8192.size a ≤ S1x1x8192.size a)
    (w : (Rect.unit (s := S1x1x8192) ![0, 0, 0] S1x1x8192.size inb).shape.Idx → Elt F .f32) (L : List (View.Piece (Elt F) S1x1x8192 .f32))
    (y : S1x1x8192.Idx) :
    v.read (Elt F) (v.writes (Elt F) g ((⟨Rect.unit ![0, 0, 0] S1x1x8192.size inb, w⟩ : View.Piece (Elt F) S1x1x8192 .f32) :: L)) y = w y :=
  View.read_writes_cons_unit_of_mem v g inb w L y y rfl (fun a => by
    match a with
    | ⟨0, _⟩ => exact (Nat.zero_add _).symm
    | ⟨1, _⟩ => exact (Nat.zero_add _).symm
    | ⟨2, _⟩ => exact (Nat.zero_add _).symm)

/-- A load of a whole memref's whole rectangle, the memref held at the contents that read X, reads X. -/
theorem readAt_whole_unread {s : Shape} {M : Memref sig .tc .vmem s .f32} (h : M.IsWhole) (X : s.Idx → Elt F .f32)
    (off : Fin s.rank → ℕ) (hoff : ∀ a, off a = 0) (inb : ∀ a, off a + s.size a ≤ s.size a) :
    View.readAt (Elt F) M.view (Rect.unit (s := s) off s.size inb).toLoadRect (h.unread X) = X := by
  funext x
  rw [h.readAt_unread X]
  congr 1
  funext a
  exact Fin.ext (by show off a + 1 * (x a).val = (x a).val; rw [hoff a]; omega)

/-- The first payload at an index: the minimum of what the buffer held there and the new row minimum. -/
theorem k0_pay1_apply (v34 : FVec F S1x2048 .f32) (v40 : Vec F S1x1x2048 .f32) (k : Fin 2048) :
    k0_pay1 v34 v40 (ix3 0 0 k) = FloatOps.minimumf (v40 (ix3 0 0 k)) (v34 (ix2 0 k)) := by
  unfold k0_pay1
  rw [shapeCast_ab_1ab_apply]
  show FloatOps.minimumf (shapeCast S1x2048 v40 shapeCasts_S1x1x2048_S1x2048 (ix2 0 k)) (v34 (ix2 0 k)) = _
  rw [shapeCast_1ab_ab_apply]

/-- The second payload at an index. -/
theorem k0_pay2_apply (v33 : FVec F S1x1024 .f32) (v48 : Vec F S1x1x1024 .f32) (k : Fin 1024) :
    k0_pay2 v33 v48 (ix3 0 0 k) = FloatOps.minimumf (v48 (ix3 0 0 k)) (v33 (ix2 0 k)) := by
  unfold k0_pay2
  rw [shapeCast_ab_1ab_apply]
  show FloatOps.minimumf (shapeCast S1x1024 v48 shapeCasts_S1x1x1024_S1x1024 (ix2 0 k)) (v33 (ix2 0 k)) = _
  rw [shapeCast_1ab_ab_apply]

/-- The index a load of the tile of 2048 reads at position j % 2048, for j in the tile: j itself. -/
theorem slice1_idx (i : grid0.Coords) (inb : ∀ a, (k0_off1 i) a + S1x1x2048.size a ≤ S1x1x8192.size a) (j : Fin 8192) (h : j.val / 2048 = (i 1).val) :
    (Rect.unit (s := S1x1x8192) (k0_off1 i) S1x1x2048.size inb).toLoadRect.idx
        (ix3 (0 : Fin 1) (0 : Fin 1) (⟨j.val % 2048, Nat.mod_lt _ (by norm_num)⟩ : Fin 2048)) = ix3 0 0 j := by
  funext a
  apply Fin.ext
  rw [LoadRect.idx_apply]
  have e := congrFun (k0_off1_eq i) a
  simp only [Rect.off_unit, Rect.stride_unit]
  rw [e]
  match a with
  | ⟨0, _⟩ => rfl
  | ⟨1, _⟩ => rfl
  | ⟨2, _⟩ => show 2048 * (i 1).val + 1 * (j.val % 2048) = j.val; omega

/-- One tile store of the point's payload over a list, read back whole: the one-point update of what the list left,
    given that the payload's old-value operand is what the list left on the tile. -/
theorem read_upd1 {κ : Kind} {sp : Space} (v : View sig κ sp S1x1x8192 .f32) (g : v.ty.Contents (Elt F))
    (L : List (View.Piece (Elt F) S1x1x8192 .f32)) (base : Vec F S1x1x8192 .f32)
    (hbase : v.read (Elt F) (v.writes (Elt F) g L) = base)
    (i : grid0.Coords) (inb : ∀ a, (k0_off1 i) a + (![1, 1, 2048] : Fin 3 → ℕ) a ≤ S1x1x8192.size a)
    (vnew : FVec F S1x2048 .f32) (vold : Vec F S1x1x2048 .f32)
    (hvold : ∀ j : Fin 8192, j.val / 2048 = (i 1).val →
      vold (ix3 0 0 ⟨j.val % 2048, Nat.mod_lt _ (by norm_num)⟩) = base (ix3 0 0 j)) :
    v.read (Elt F) (v.writes (Elt F) g
        ((⟨Rect.unit (s := S1x1x8192) (k0_off1 i) ![1, 1, 2048] inb, k0_pay1 vnew vold⟩ : View.Piece (Elt F) S1x1x8192 .f32) :: L))
      = upd1 base i vnew := by
  funext y
  have h0 : y 0 = (0 : Fin 1) := Subsingleton.elim (α := Fin 1) _ _
  have h1 : y 1 = (0 : Fin 1) := Subsingleton.elim (α := Fin 1) _ _
  obtain ⟨j, rfl⟩ : ∃ j : Fin 8192, y = ix3 0 0 j :=
    ⟨y 2, funext fun a => by match a with | ⟨0, _⟩ => exact h0 | ⟨1, _⟩ => exact h1 | ⟨2, _⟩ => rfl⟩
  refine (read_tile2048 v g inb _ L (i 1).val (k0_off1_eq i) j).trans ?_
  unfold upd1
  show _ = if j.val / 2048 = (i 1).val then _ else _
  by_cases h : j.val / 2048 = (i 1).val
  · rw [if_pos h, if_pos h, k0_pay1_apply, hvold j h]
  · rw [if_neg h, if_neg h, hbase]

/-- The index a load of the tile of 1024 reads at position j % 1024, for j in the tile: j itself. -/
theorem slice2_idx (i : grid0.Coords) (inb : ∀ a, (k0_off2 i) a + S1x1x1024.size a ≤ S1x1x8192.size a) (j : Fin 8192) (h : j.val / 1024 = (i 2).val) :
    (Rect.unit (s := S1x1x8192) (k0_off2 i) S1x1x1024.size inb).toLoadRect.idx
        (ix3 (0 : Fin 1) (0 : Fin 1) (⟨j.val % 1024, Nat.mod_lt _ (by norm_num)⟩ : Fin 1024)) = ix3 0 0 j := by
  funext a
  apply Fin.ext
  rw [LoadRect.idx_apply]
  have e := congrFun (k0_off2_eq i) a
  simp only [Rect.off_unit, Rect.stride_unit]
  rw [e]
  match a with
  | ⟨0, _⟩ => rfl
  | ⟨1, _⟩ => rfl
  | ⟨2, _⟩ => show 1024 * (i 2).val + 1 * (j.val % 1024) = j.val; omega

/-- One tile store of the point's payload over a list, read back whole: the one-point update of what the list left,
    given that the payload's old-value operand is what the list left on the tile. -/
theorem read_upd2 {κ : Kind} {sp : Space} (v : View sig κ sp S1x1x8192 .f32) (g : v.ty.Contents (Elt F))
    (L : List (View.Piece (Elt F) S1x1x8192 .f32)) (base : Vec F S1x1x8192 .f32)
    (hbase : v.read (Elt F) (v.writes (Elt F) g L) = base)
    (i : grid0.Coords) (inb : ∀ a, (k0_off2 i) a + (![1, 1, 1024] : Fin 3 → ℕ) a ≤ S1x1x8192.size a)
    (vnew : FVec F S1x1024 .f32) (vold : Vec F S1x1x1024 .f32)
    (hvold : ∀ j : Fin 8192, j.val / 1024 = (i 2).val →
      vold (ix3 0 0 ⟨j.val % 1024, Nat.mod_lt _ (by norm_num)⟩) = base (ix3 0 0 j)) :
    v.read (Elt F) (v.writes (Elt F) g
        ((⟨Rect.unit (s := S1x1x8192) (k0_off2 i) ![1, 1, 1024] inb, k0_pay2 vnew vold⟩ : View.Piece (Elt F) S1x1x8192 .f32) :: L))
      = upd2 base i vnew := by
  funext y
  have h0 : y 0 = (0 : Fin 1) := Subsingleton.elim (α := Fin 1) _ _
  have h1 : y 1 = (0 : Fin 1) := Subsingleton.elim (α := Fin 1) _ _
  obtain ⟨j, rfl⟩ : ∃ j : Fin 8192, y = ix3 0 0 j :=
    ⟨y 2, funext fun a => by match a with | ⟨0, _⟩ => exact h0 | ⟨1, _⟩ => exact h1 | ⟨2, _⟩ => rfl⟩
  refine (read_tile1024 v g inb _ L (i 2).val (k0_off2_eq i) j).trans ?_
  unfold upd2
  show _ = if j.val / 1024 = (i 2).val then _ else _
  by_cases h : j.val / 1024 = (i 2).val
  · rw [if_pos h, if_pos h, k0_pay2_apply, hvold j h]
  · rw [if_neg h, if_neg h, hbase]

/-! ## The kernel body on any staging memrefs, case by case -/

set_option maxHeartbeats 1000000 in
/-- Case A (the conditional taken: the first point of a batch). On whole staging memrefs, the inputs' at their contents
    and the outputs' at anything, the body runs to the continuation holding the inputs' as they were and each output's
    at the one-point update of the reset buffer: the first store covers the buffer with +∞, the tile's load then reads
    +∞ off it, and the tile's store leaves the minimum. -/
theorem kernelRun0_A (c : Dev nD) (i : grid0.Coords)
    (arg3 : Memref sig .tc .vmem S1x2048x3 .f32) (harg3 : arg3.IsWhole) (arg4 : Memref sig .tc .vmem S1x1024x3 .f32) (harg4 : arg4.IsWhole)
    (arg5 : Memref sig .tc .vmem S1x1x8192 .f32) (harg5 : arg5.IsWhole) (arg6 : Memref sig .tc .vmem S1x1x8192 .f32) (harg6 : arg6.IsWhole)
    (hc0 : cond0_0 i) (x3 : Vec F S1x2048x3 .f32) (x4 : Vec F S1x1024x3 .f32) (E : Set ℕ) (K : PUnit → sProp 𝕄) :
    iprop(owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg3 fullShare x3 ∗ owns (c : Thread nD τ) arg4 fullShare x4
            ∗ owns (c : Thread nD τ) arg5 fullShare (upd1 infV i (k0_pay7 x3 x4))
            ∗ owns (c : Thread nD τ) arg6 fullShare (upd2 infV i (k0_pay6 x3 x4))) -∗ K ⟨⟩))
      ⊢ wp frame (wpE (defs₀ (F := F)) Variants.none c none) E (cc0__min_dist_kernel i arg3 harg3 arg4 harg4 arg5 harg5 arg6 harg6) K := by
  simp only [cc0__min_dist_kernel_eq_skeleton]; unfold cc0__min_dist_kernel_skel
  simp only [k0_part1_eq_skeleton]; unfold k0_part1_skel
  unfold owns
  iintro ⟨⟨%f3, %hf3, H3⟩, ⟨%f4, %hf4, H4⟩, ⟨%d5, %f5, -, H5⟩, ⟨%d6, %f6, -, H6⟩, Hk⟩
  obtain rfl := harg3.eq_unread hf3; obtain rfl := harg4.eq_unread hf4
  sl_exec (disch := first | exact hc0)
  sl_step
  have e3 := readAt_whole_unread harg3 x3 ![0, 0, 0] (fun a => by match a with | ⟨0, _⟩ => rfl | ⟨1, _⟩ => rfl | ⟨2, _⟩ => rfl) inb_S1x2048x3_S1x2048x3_0_0_0
  have e4 := readAt_whole_unread harg4 x4 ![0, 0, 0] (fun a => by match a with | ⟨0, _⟩ => rfl | ⟨1, _⟩ => rfl | ⟨2, _⟩ => rfl) inb_S1x1024x3_S1x1024x3_0_0_0
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    refine (read_upd1 arg5.view arg5.view.junk _ infV ?hb i _ _ _ (fun j h => ?_)).trans (by rw [e3, e4])
    case hb => funext y; exact read_whole_store arg5.view _ _ _ [] y
    exact read_whole_store arg5.view _ _ _ [] _
  iexists _; isplitr; swap; · iexact H6
  ipureintro
  refine (read_upd2 arg6.view arg6.view.junk _ infV ?hb i _ _ _ (fun j h => ?_)).trans (by rw [e3, e4])
  case hb => funext y; exact read_whole_store arg6.view _ _ _ [] y
  exact read_whole_store arg6.view _ _ _ [] _

set_option maxHeartbeats 1000000 in
/-- Case B (the conditional not taken). On whole staging memrefs, the inputs' and the outputs' at their contents, the
    body runs to the continuation holding the inputs' as they were and each output's at the one-point update of what
    it held: the tile's load reads the old values, the tile's store leaves the minimum, the rest is untouched. -/
theorem kernelRun0_B (c : Dev nD) (i : grid0.Coords)
    (arg3 : Memref sig .tc .vmem S1x2048x3 .f32) (harg3 : arg3.IsWhole) (arg4 : Memref sig .tc .vmem S1x1024x3 .f32) (harg4 : arg4.IsWhole)
    (arg5 : Memref sig .tc .vmem S1x1x8192 .f32) (harg5 : arg5.IsWhole) (arg6 : Memref sig .tc .vmem S1x1x8192 .f32) (harg6 : arg6.IsWhole)
    (hc0 : ¬cond0_0 i) (x3 : Vec F S1x2048x3 .f32) (x4 : Vec F S1x1024x3 .f32) (xo5 : Vec F S1x1x8192 .f32) (xo6 : Vec F S1x1x8192 .f32)
    (E : Set ℕ) (K : PUnit → sProp 𝕄) :
    iprop(owns (c : Thread nD τ) arg3 fullShare x3 ∗ owns (c : Thread nD τ) arg4 fullShare x4
        ∗ owns (c : Thread nD τ) arg5 fullShare xo5 ∗ owns (c : Thread nD τ) arg6 fullShare xo6
        ∗ (iprop(owns (c : Thread nD τ) arg3 fullShare x3 ∗ owns (c : Thread nD τ) arg4 fullShare x4
            ∗ owns (c : Thread nD τ) arg5 fullShare (upd1 xo5 i (k0_pay7 x3 x4))
            ∗ owns (c : Thread nD τ) arg6 fullShare (upd2 xo6 i (k0_pay6 x3 x4))) -∗ K ⟨⟩))
      ⊢ wp frame (wpE (defs₀ (F := F)) Variants.none c none) E (cc0__min_dist_kernel i arg3 harg3 arg4 harg4 arg5 harg5 arg6 harg6) K := by
  simp only [cc0__min_dist_kernel_eq_skeleton]; unfold cc0__min_dist_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4
  obtain rfl := harg5.eq_unread hf5; obtain rfl := harg6.eq_unread hf6
  sl_exec (disch := first | exact hc0)
  sl_step
  have e3 := readAt_whole_unread harg3 x3 ![0, 0, 0] (fun a => by match a with | ⟨0, _⟩ => rfl | ⟨1, _⟩ => rfl | ⟨2, _⟩ => rfl) inb_S1x2048x3_S1x2048x3_0_0_0
  have e4 := readAt_whole_unread harg4 x4 ![0, 0, 0] (fun a => by match a with | ⟨0, _⟩ => rfl | ⟨1, _⟩ => rfl | ⟨2, _⟩ => rfl) inb_S1x1024x3_S1x1024x3_0_0_0
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    refine (read_upd1 arg5.view (harg5.unread xo5) [] xo5 (harg5.read_unread xo5) i _ _ _ (fun j h => ?_)).trans (by rw [e3, e4])
    exact (harg5.readAt_unread xo5 _ _).trans (congrArg xo5 (slice1_idx i _ j h))
  iexists _; isplitr; swap; · iexact H6
  ipureintro
  refine (read_upd2 arg6.view (harg6.unread xo6) [] xo6 (harg6.read_unread xo6) i _ _ _ (fun j h => ?_)).trans (by rw [e3, e4])
  exact (harg6.readAt_unread xo6 _ _).trans (congrArg xo6 (slice2_idx i _ j h))

/-! ## The pipeline's proof data -/

/-- The proof data of the one pipeline on core c: the arrays as the region finds them; after the body at point t each
    input's buffer at its block and the two outputs' at outsAt0; the class's invariant (the scoped rest and the
    generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point that is not the first of its batch the first output's current staging buffer holds what the body left
    at the point before: the point is not the first, the buffer was not written back in between (write-backs happen
    at the last point of a batch only), the window is live and uncut. -/
theorem before0_2_B (c : Dev nD) (t : Fin cfg0.N) (h0 : ¬t.val % 32 = 0) (d) :
    (dats m 0 c).before 2 t d = (outsAt0 m c (t.val - 1) (Nat.lt_of_le_of_lt (Nat.sub_le _ _) t.isLt)).1 := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]
/-- The same for the second output. -/
theorem before0_3_B (c : Dev nD) (t : Fin cfg0.N) (h0 : ¬t.val % 32 = 0) (d) :
    (dats m 0 c).before 3 t d = (outsAt0 m c (t.val - 1) (Nat.lt_of_le_of_lt (Nat.sub_le _ _) t.isLt)).2 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point t (the library's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 800000 in
/-- The body at any point: the inputs' memrefs hold their blocks; the closed form says which case the point is in; at a
    point that is not the first of its batch the outputs' memrefs hold what the point before left; so that case's run
    applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  by_cases h0 : t.val % 32 = 0
  · rw [outsAt0_A m c t h0]
    iintro ⟨HΦ, Ho, ⟨%d0, H0⟩, ⟨%d1, H1⟩, ⟨%d2, H2⟩, ⟨%d3, H3⟩⟩
    iapply (kernelRun0_A c (grid0.coords t) _ _ _ _ _ _ _ _ ((hcond0_0 t).mpr h0) (iblk m c 0 t) (iblk m c 1 t) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outsAt0_B m c t h0]
    simp only [before0_2_B m c t h0, before0_3_B m c t h0]
    iintro ⟨HΦ, Ho, ⟨%d0, H0⟩, ⟨%d1, H1⟩, ⟨%d2, H2⟩, ⟨%d3, H3⟩⟩
    iapply (kernelRun0_B c (grid0.coords t) _ _ _ _ _ _ _ _ (fun h => h0 ((hcond0_0 t).mp h)) (iblk m c 0 t) (iblk m c 1 t) _ _ Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- info: 'Cert.Kernel.Hand.run_main' depends on axioms: [propext, Classical.choice, Quot.sound] -/
#guard_msgs in #print axioms run_main

/-- The frame: @main leaves its two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.lean ====
/-
  Two programs for the chamfer statistics of two point clouds [4, 8192, 3] end with equal results on the extended reals.

  The kernel walks a grid of 4 × 4 × 8 tiles; at each point it forms the tile of exact squared distances
  Σ_k (x[b,n,k] − y[b,m,k])² between 2048 points of the first cloud and 1024 of the second and folds the tile's row and
  column minima into two running minima kept in its output buffers, reset to +∞ at each batch's first tile; the host
  then takes means, roots and a thresholded F-score of the two minimum arrays. The reference computes
  max(‖x‖² + ‖y‖² − 2⟨x, y⟩, 0) for all pairs at once, reduces by minimum along either axis, and applies the same chain.
  On finite inputs the expanded square equals the sum of squared differences and is not negative, so the clamp is the
  identity (Algebra); a minimum accumulated tile by tile is the minimum over everything (Accum); hence both programs
  apply one chain of host operations to equal arrays. Finiteness is the precondition (Finite). The three frames: the
  kernel programs' runs (region launched at every grid point, the body's two control cases, then the host chain) and
  the reference's run of host operations; nothing was rewritten between the word-level kernel and its reading over the
  extended reals, so that conjunct is trivial.
-/
import proofs.«167617_j65481071394839_2_alg».proof.Defs
import proofs.«167617_j65481071394839_2_alg».proof.Proof.Gen.Kernel
import proofs.«167617_j65481071394839_2_alg».proof.Proof.Gen.KernelIdeal
import proofs.«167617_j65481071394839_2_alg».proof.Proof.Gen.ReferenceIdeal
import proofs.«167617_j65481071394839_2_alg».proof.Proof.Gen.Pre_finite_inputs
import proofs.«167617_j65481071394839_2_alg».proof.Proof.Finite
import proofs.«167617_j65481071394839_2_alg».proof.Proof.Ref.Dist
import proofs.«167617_j65481071394839_2_alg».proof.Proof.KI.Tail
import proofs.«167617_j65481071394839_2_alg».proof.Proof.KI.Final
import proofs.«167617_j65481071394839_2_alg».proof.Proof.K.Body
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves both clouds as it found them. -/
theorem frame_k : Cert.frame_Kernel := fun m ρ _ => Cert.Kernel.Hand.frame (F := Bits) m ρ

/-- So does the kernel read over the extended reals. -/
theorem frame_ki : Cert.frame_KernelIdeal := fun m ρ _ => Cert.KernelIdeal.Hand.frame (F := Ideal) m ρ

/-- The reference is host operations only: its run, with the results dropped. -/
theorem frame_ri : Cert.frame_ReferenceIdeal := fun m ρ _ =>
  (θ_run (Cert.ReferenceIdeal.defs (F := Ideal)) _ _).mono (fun _ h c => ⟨(h c).2.2.2.1, (h c).2.2.2.2⟩)
    (Cert.ReferenceIdeal.RefValue.ref_run m ρ)

/-- Nothing was rewritten when the kernel was read over the extended reals. -/
theorem preserves : Cert.preserves_Kernel_KernelIdeal := trivial

/-- Both programs end at the three chamfer statistics of the same two distance arrays: the kernel's running minima of
    exact squared distances are, after each batch's last tile, every point's distance to its nearest neighbour; the
    reference's clamped `‖x‖² + ‖y‖² − 2⟨x, y⟩` is the same squared distance at finite inputs (the square expanded; a
    sum of squares is not negative), and its two minimum reductions are the same minima. The rest is one shared chain
    of host operations applied to equal arrays. -/
theorem algebraic : Cert.algebraic_KernelIdeal_ReferenceIdeal := by
  intro m ρ m' ρ' hpre hagree
  refine ⟨fun c => Cert.Chamfer.cdP (Cert.Chamfer.dist1 (Cert.KernelIdeal.HandFinal.X0 m c) (Cert.KernelIdeal.HandFinal.X1 m c)) (Cert.Chamfer.dist2 (Cert.KernelIdeal.HandFinal.X0 m c) (Cert.KernelIdeal.HandFinal.X1 m c)),
    fun c => Cert.Chamfer.cdT (Cert.Chamfer.dist1 (Cert.KernelIdeal.HandFinal.X0 m c) (Cert.KernelIdeal.HandFinal.X1 m c)) (Cert.Chamfer.dist2 (Cert.KernelIdeal.HandFinal.X0 m c) (Cert.KernelIdeal.HandFinal.X1 m c)),
    fun c => Cert.Chamfer.f1 (Cert.Chamfer.dist1 (Cert.KernelIdeal.HandFinal.X0 m c) (Cert.KernelIdeal.HandFinal.X1 m c)) (Cert.Chamfer.dist2 (Cert.KernelIdeal.HandFinal.X0 m c) (Cert.KernelIdeal.HandFinal.X1 m c)), ?_, ?_⟩
  · refine (θ_run (Cert.KernelIdeal.defs (F := Ideal)) _ _).mono (fun r h c => ?_) (Cert.KernelIdeal.Hand.run_main (F := Ideal) m ρ)
    obtain ⟨t13, t20, t43⟩ := Cert.KernelIdeal.HandTail.tail_results m (Cert.KernelIdeal.Hand.dats m) c
    rw [Cert.KernelIdeal.HandFinal.D1_eq m c, Cert.KernelIdeal.HandFinal.D2_eq m c] at t13 t20 t43
    exact ⟨((h c).2 _ (Pipeline.mem_restRefs_of Cert.KernelIdeal.main_v13 (by decide) (by decide))).trans t13,
      ((h c).2 _ (Pipeline.mem_restRefs_of Cert.KernelIdeal.main_v20 (by decide) (by decide))).trans t20,
      ((h c).2 _ (Pipeline.mem_restRefs_of Cert.KernelIdeal.main_v43 (by decide) (by decide))).trans t43,
      ((h c).1 0).trans ((((Cert.KernelIdeal.Hand.dats m 0 c).arrAt_in 0 rfl _).trans ((Cert.KernelIdeal.Hand.A_eq m c 0).trans (Cert.KernelIdeal.Hand.V_main_arg0 m c)))),
      ((h c).1 1).trans ((((Cert.KernelIdeal.Hand.dats m 0 c).arrAt_in 1 rfl _).trans ((Cert.KernelIdeal.Hand.A_eq m c 1).trans (Cert.KernelIdeal.Hand.V_main_arg1 m c))))⟩
  · refine (θ_run (Cert.ReferenceIdeal.defs (F := Ideal)) _ _).mono (fun r h c => ?_) (Cert.ReferenceIdeal.RefValue.ref_run m' ρ')
    obtain ⟨h27, h34, h57, ha0, ha1⟩ := h c
    have hf := Cert.Chamfer.Finite.reals_of_pre _ _ (hpre c)
    have e0 := (hagree c).1
    have e1 := (hagree c).2
    have d1 := Cert.ReferenceIdeal.RefValue.refDist1_eq _ _ (e0 ▸ hf.1) (e1 ▸ hf.2)
    have d2 := Cert.ReferenceIdeal.RefValue.refDist2_eq _ _ (e0 ▸ hf.1) (e1 ▸ hf.2)
    rw [d1, d2, e0, e1] at h27 h34 h57
    exact ⟨h27, h34, h57, ha0, ha1⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
